-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) (main_arg1 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Kernel.lean ====
abbrev S8192x1024 : Shape := ⟨2, ![8192, 1024]⟩
abbrev S8192x1 : Shape := ⟨2, ![8192, 1]⟩
abbrev S2048x1024 : Shape := ⟨2, ![2048, 1024]⟩
abbrev S2048x1 : Shape := ⟨2, ![2048, 1]⟩
abbrev S2048 : Shape := ⟨1, ![2048]⟩
abbrev S8192 : Shape := ⟨1, ![8192]⟩
abbrev S_ : Shape := ⟨0, ![]⟩
abbrev S1 : Shape := ⟨1, ![1]⟩
abbrev S8192x8192 : Shape := ⟨2, ![8192, 8192]⟩
abbrev S2048x2048 : Shape := ⟨2, ![2048, 2048]⟩

abbrev nBuf : Space → Nat
  | .hbm => 19
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1, .f32⟩
  | .hbm, ⟨3, _⟩ => ⟨S8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1, .f32⟩
  | .hbm, ⟨9, _⟩ => ⟨S8192, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S1, .f32⟩
  | .hbm, ⟨15, _⟩ => ⟨S8192, .f32⟩
  | .hbm, ⟨16, _⟩ => ⟨S8192, .f32⟩
  | .hbm, ⟨17, _⟩ => ⟨S8192x1, .f32⟩
  | .hbm, ⟨18, _⟩ => ⟨S8192x8192, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .f32⟩
  | .local _ .vmem, ⟨3, _⟩ => ⟨S2048x1024, .f32⟩
  | .local _ .vmem, ⟨4, _⟩ => ⟨S2048x1, .f32⟩
  | .local _ .vmem, ⟨5, _⟩ => ⟨S2048x1, .f32⟩
  | .local _ .vmem, ⟨6, _⟩ => ⟨S2048x1, .f32⟩
  | .local _ .vmem, ⟨7, _⟩ => ⟨S2048x1, .f32⟩
  | .local _ .vmem, ⟨8, _⟩ => ⟨S2048x2048, .f32⟩
  | .local _ .vmem, ⟨9, _⟩ => ⟨S2048x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 4], ![false, false]⟩

def k1_cond1 (i : grid1.Coords) : BitVec 1 :=
  let arg0 : BitVec 32 := BitVec.ofNat 32 (i 0).val
  let arg1 : BitVec 32 := BitVec.ofNat 32 (i 1).val
  let v0 : BitVec 1 := Scalar.cmpi .eq arg0 arg1
  let v1 : BitVec 32 := Scalar.extui v0
  let c0_i32 : BitVec 32 := 0#32
  let v2 : BitVec 1 := Scalar.cmpi .ne v1 c0_i32
  v2

def k1_cond2 (i : grid1.Coords) : BitVec 1 :=
  let arg0 : BitVec 32 := BitVec.ofNat 32 (i 0).val
  let arg1 : BitVec 32 := BitVec.ofNat 32 (i 1).val
  let v3 : BitVec 1 := Scalar.cmpi .ne arg0 arg1
  let v4 : BitVec 32 := Scalar.extui v3
  let c0_i32_0 : BitVec 32 := 0#32
  let v5 : BitVec 1 := Scalar.cmpi .ne v4 c0_i32_0
  v5

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S2048x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

class Facts₀ : Prop where
  inb_S2048x1024_S2048x1024_0_0 : ∀ a, (![0, 0] : Fin 2 → Nat) a + S2048x1024.size a ≤ S2048x1024.size a
  h_S2048x1024 : 0 < S2048x1024.numel
  reduces_S2048x1024_S2048 : S2048x1024.Reduces [1] S2048
  shapeCasts_S2048_S2048x1 : S2048.ShapeCasts S2048x1
  inb_S2048x1_S2048x1_0_0 : ∀ a, (![0, 0] : Fin 2 → Nat) a + S2048x1.size a ≤ S2048x1.size a
  h_S2048x1 : 0 < S2048x1.numel
  shapeCasts_S8192x1_S8192 : S8192x1.ShapeCasts S8192
  reducesTo_S8192_S_d0 : S8192.ReducesTo [0] S_
  h_S_ : 0 < S_.numel
  bcast_S_S1 : S_.BroadcastsInDim S1 (![] : Fin 0 → Fin S1.rank)
  bcast_S1_S8192_0 : S1.BroadcastsInDim S8192 (![0] : Fin 1 → Fin S8192.rank)
  shapeCasts_S8192_S8192x1 : S8192.ShapeCasts S8192x1
  iota_S2048x2048_d0_w32 : S2048x2048.Iotas .tc 32 [0]
  iota_S2048x2048_d1_w32 : S2048x2048.Iotas .tc 32 [1]
  shapeCasts_S2048x1_S2048x1 : S2048x1.ShapeCasts S2048x1
  broadcasts_S2048x1_S2048x2048 : S2048x1.Broadcasts S2048x2048
  inb_S2048x2048_S2048x2048_0_0 : ∀ a, (![0, 0] : Fin 2 → Nat) a + S2048x2048.size a ≤ S2048x2048.size a
  h_S2048x2048 : 0 < S2048x2048.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x1024.size a
  hwx0_0 : ∀ i : grid0.Coords, EltTy.bits .f32 = 32 ∨ (Rect.block (s := S8192x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S8192x1024.size a
  hwx0_1 : ∀ i : grid0.Coords, EltTy.bits .f32 = 32 ∨ (Rect.block (s := S8192x1024) S2048x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S8192x1.size a
  hwx0_2 : ∀ i : grid0.Coords, EltTy.bits .f32 = 32 ∨ (Rect.block (s := S8192x1) S2048x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1.size a ≤ S8192x1.size a
  hwx1_0 : ∀ i : grid1.Coords, EltTy.bits .f32 = 32 ∨ (Rect.block (s := S8192x1) S2048x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S8192x8192.size a
  hwx1_1 : ∀ i : grid1.Coords, EltTy.bits .f32 = 32 ∨ (Rect.block (s := S8192x8192) S2048x2048.size (cc1_transform_1 i) (hinb1_1 i)).WholeWords (EltTy.packing .f32)

variable [Facts₀]

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v12) S2048x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S2048x2048.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev idle1 : Fin 2 → grid1.Coords → Bool := fun | 0 => fun _ => false | 1 => fun i => !(k1_cond1 i == 1#1) && !(k1_cond2 i == 1#1) | ⟨_ + 2, h⟩ => absurd h (Nat.not_lt.2 (Nat.le_add_left _ _))

class Facts : Prop extends Facts₀ where

variable [Facts]
-- ==== ReferenceIdeal.lean ====
abbrev S8192x1024 : Shape := ⟨2, ![8192, 1024]⟩
abbrev S_ : Shape := ⟨0, ![]⟩
abbrev S8192 : Shape := ⟨1, ![8192]⟩
abbrev S1 : Shape := ⟨1, ![1]⟩
abbrev S8192x8192 : Shape := ⟨2, ![8192, 8192]⟩
abbrev S8192x1 : Shape := ⟨2, ![8192, 1]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S1, .f32⟩
  | .hbm, ⟨10, _⟩ => ⟨S8192, .f32⟩
  | .hbm, ⟨11, _⟩ => ⟨S8192, .f32⟩
  | .hbm, ⟨12, _⟩ => ⟨S8192, .f32⟩
  | .hbm, ⟨13, _⟩ => ⟨S_, .f32⟩
  | .hbm, ⟨14, _⟩ => ⟨S_, .f32⟩
  | .hbm, ⟨15, _⟩ => ⟨S1, .f32⟩
  | .hbm, ⟨16, _⟩ => ⟨S8192, .f32⟩
  | .hbm, ⟨17, _⟩ => ⟨S8192, .f32⟩
  | .hbm, ⟨18, _⟩ => ⟨S_, .f32⟩
  | .hbm, ⟨19, _⟩ => ⟨S8192, .f32⟩
  | .hbm, ⟨20, _⟩ => ⟨S8192x8192, .i32⟩
  | .hbm, ⟨21, _⟩ => ⟨S8192x8192, .i32⟩
  | .hbm, ⟨22, _⟩ => ⟨S_, .i32⟩
  | .hbm, ⟨23, _⟩ => ⟨S8192x8192, .i32⟩
  | .hbm, ⟨24, _⟩ => ⟨S8192x8192, .i32⟩
  | .hbm, ⟨25, _⟩ => ⟨S8192x8192, .i1⟩
  | .hbm, ⟨26, _⟩ => ⟨S8192x1, .f32⟩
  | .hbm, ⟨27, _⟩ => ⟨S_, .f32⟩
  | .hbm, ⟨28, _⟩ => ⟨S8192x8192, .f32⟩
  | .hbm, ⟨29, _⟩ => ⟨S8192x8192, .f32⟩
  | .hbm, ⟨30, _⟩ => ⟨S8192x8192, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_c : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_cst_0 : Ref sig .tc := ⟨.hbm, 27, rfl⟩
abbrev main_call0_call0_v0 : Ref sig .tc := ⟨.hbm, 28, rfl⟩
abbrev main_call0_call0_v1 : Ref sig .tc := ⟨.hbm, 29, rfl⟩
abbrev main_v12 : Ref sig .tc := ⟨.hbm, 30, rfl⟩

abbrev nD : Nat := 1
abbrev τ : Topo := Topo.v7x

variable {F : FTy → Type} [FloatOps F]

class Facts₀ : Prop where
  reducesTo_S8192x1024_S8192_d1 : S8192x1024.ReducesTo [1] S8192
  h_S_ : 0 < S_.numel
  reducesTo_S8192_S_d0 : S8192.ReducesTo [0] S_
  bcast_S_S1 : S_.BroadcastsInDim S1 (![] : Fin 0 → Fin S1.rank)
  bcast_S1_S8192_0 : S1.BroadcastsInDim S8192 (![0] : Fin 1 → Fin S8192.rank)
  pads_S8192_S8192_000 : S8192.Pads (![0] : Fin 1 → Nat) ![0] ![0] S8192
  bcast_S_S8192x8192 : S_.BroadcastsInDim S8192x8192 (![] : Fin 0 → Fin S8192x8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)

variable [Facts₀]

class Facts : Prop extends Facts₀ where

variable [Facts]
-- ==== Proof.KBRegion0.lean ====
/-
  The first kernel region (the row-dot kernel, grid of 4 points) as the pipeline runs it, at any float instance.

  Point t stages rows 2048·t … 2048·t+2047 of the two [8192, 1024] arguments and writes back the [2048, 1] block of
  the result at the same rows. The body loads both staged blocks whole, and stores, over the whole output block, one
  value: the lane sum of their entrywise product, as a column. Nothing is carried from point to point, so what the
  body leaves in each staging buffer is a function of the two input blocks alone; that function, the triple of the
  body run symbolically, and the proof data of the pipeline (arrays as the region finds them, each input's buffer at
  its block, the output's at that function of the blocks) are stated here at a parameter V, the buffers' contents
  when the region is entered.
-/
import proofs.«153484_j25091198943263_1_alg».proof.Proof.Gen.Kernel.Launch
import proofs.«153484_j25091198943263_1_alg».proof.Proof.Gen.Kernel.Skeleton
import proofs.«153484_j25091198943263_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: unfetched, the
    block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole block -/

abbrev rIn0 : Rect S2048x1024 := Rect.unit (s := S2048x1024) ![0, 0] S2048x1024.size inb_S2048x1024_S2048x1024_0_0
abbrev rOut0 : Rect S2048x1 := Rect.unit (s := S2048x1) ![0, 0] S2048x1.size inb_S2048x1_S2048x1_0_0

/-- What the body leaves in the output's staging buffer, from the two input blocks: its one store, of the column of
    lane sums of the blocks' entrywise product, over the whole block. -/
def rowSums0 (x0 x1 : Vec F S2048x1024 .f32) : Vec F S2048x1 .f32 :=
  View.canon [⟨rOut0, k0_pay1 (View.ld x0 rIn0) (View.ld x1 rIn0)⟩]

/-- That store covers the block. -/
theorem cover_rowSums0 (p0 : Vec F S2048x1 .f32) (y : S2048x1.Idx) :
    ∃ pc ∈ ([⟨rOut0, p0⟩] : List (View.Piece (Elt F) S2048x1 .f32)), y ∈ pc.1.set :=
  View.cover_of_tiled [⟨rOut0, p0⟩] S2048x1.size (by rfl) y

/-! ## The body's triple -/

set_option maxHeartbeats 1000000 in
/-- The body on whole staging memrefs, the inputs' at contents x0, x1 and the output's at anything, runs to the
    continuation holding the inputs' as they were and the output's at the column of row sums. -/
theorem sound_kernel0 (c : Dev nD) (E : Set ℕ) (i : grid0.Coords)
    (arg1 : Memref sig .tc .vmem S2048x1024 .f32) (harg1 : arg1.IsWhole) (arg2 : Memref sig .tc .vmem S2048x1024 .f32) (harg2 : arg2.IsWhole)
    (arg3 : Memref sig .tc .vmem S2048x1 .f32) (harg3 : arg3.IsWhole)
    (x0 x1 : Vec F S2048x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (rowSums0 x0 x1)) -∗ K ⟨⟩))
      ⊢ wp frame (wpE (defs₀ (F := F)) Variants.none c none) E (cc0__reduce_kernel i arg1 harg1 arg2 harg2 arg3 harg3) K := by
  simp only [cc0__reduce_kernel_eq_skeleton]; unfold cc0__reduce_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_rowSums0 _)

/-! ## The pipeline's proof data -/

/-- The proof data of the pipeline on core c: the arrays as the region finds them; after the body at point t each
    input's buffer at its block and the output's at the row sums of the two blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => rowSums0 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = rowSums0 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KBRegion1.lean ====
/-
  The second kernel region (the diagonal kernel, 4 x 4 grid) as the pipeline runs it, at any float instance.

  Point (i, j) stages rows 2048·i … 2048·i+2047 of the [8192, 1] column and writes back block (i, j), of 2048 x 2048
  entries, of the [8192, 8192] result. The body has two branches on the point's coordinates, of which exactly one is
  taken at every point: where i = j it loads the staged column and stores, over the whole output block, the column
  broadcast along the rows where the entry's row and column inside the block agree and zero elsewhere; where i ≠ j it
  stores zero over the whole block. Either way the output block is overwritten whole and nothing is carried between
  points, so what the body leaves is a function of the point and the staged column alone. Stated here at a parameter
  V, the buffers' contents when the region is entered: that function, the body's triple in each of the two cases,
  and the proof data of the pipeline.
-/
import proofs.«153484_j25091198943263_1_alg».proof.Proof.Gen.Kernel.Launch
import proofs.«153484_j25091198943263_1_alg».proof.Proof.Gen.Kernel.Skeleton
import proofs.«153484_j25091198943263_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, fetched there or not (it is fetched
    only when the row coordinate moves; unfetched, the block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The two branches over the grid -/

/-- At every point exactly one of the body's two branches is taken: the first where the coordinates agree, the second
    where they differ (decided over the 16 points). -/
theorem branch1 : ∀ t : Fin cfg1.N, (k1_cond1 (grid1.coords t) = 1#1 ∧ ¬ k1_cond2 (grid1.coords t) = 1#1)
      ∨ (¬ k1_cond1 (grid1.coords t) = 1#1 ∧ k1_cond2 (grid1.coords t) = 1#1) :=
  (by decide +kernel : ∀ t : Fin grid1.N, (k1_cond1 (grid1.coords t) = 1#1 ∧ ¬ k1_cond2 (grid1.coords t) = 1#1)
      ∨ (¬ k1_cond1 (grid1.coords t) = 1#1 ∧ k1_cond2 (grid1.coords t) = 1#1))

/-- So the output window is idle at no point. -/
theorem live1 : ∀ t : Fin cfg1.N, idle1 1 (grid1.coords t) = false :=
  (by decide +kernel : ∀ t : Fin grid1.N, idle1 1 (grid1.coords t) = false)

/-! ## The body's accesses: each a whole block -/

abbrev rIn1 : Rect S2048x1 := Rect.unit (s := S2048x1) ![0, 0] S2048x1.size inb_S2048x1_S2048x1_0_0
abbrev rOut1 : Rect S2048x2048 := Rect.unit (s := S2048x2048) ![0, 0] S2048x2048.size inb_S2048x2048_S2048x2048_0_0

/-- What the first branch leaves in the output's buffer: its one store, of the masked broadcast of the staged column. -/
def diagBlock1 (x0 : Vec F S2048x1 .f32) : Vec F S2048x2048 .f32 :=
  View.canon [⟨rOut1, k1_pay1 (View.ld x0 rIn1)⟩]

/-- What the second branch leaves there: its one store, of zero. -/
def zeroBlock1 : Vec F S2048x2048 .f32 :=
  View.canon [⟨rOut1, k1_pay2 (F := F)⟩]

/-- What the body leaves in the output's buffer at grid coordinates i, from the staged column. -/
def outBlock1 (i : grid1.Coords) (x0 : Vec F S2048x1 .f32) : Vec F S2048x2048 .f32 :=
  if k1_cond1 i = 1#1 then diagBlock1 x0 else zeroBlock1

/-- Either store covers the block. -/
theorem cover_out1 (p0 : Vec F S2048x2048 .f32) (y : S2048x2048.Idx) :
    ∃ pc ∈ ([⟨rOut1, p0⟩] : List (View.Piece (Elt F) S2048x2048 .f32)), y ∈ pc.1.set :=
  View.cover_of_tiled [⟨rOut1, p0⟩] S2048x2048.size (by rfl) y

/-! ## The body's triple, branch by branch -/

set_option maxHeartbeats 1000000 in
/-- Where the coordinates agree: the input's memref at contents x0 and the output's at anything, the body runs to the
    continuation holding the input's as it was and the output's at the masked broadcast of x0. -/
theorem sound_kernel1_diag (c : Dev nD) (E : Set ℕ) (i : grid1.Coords) (hc1 : k1_cond1 i = 1#1) (hc2 : ¬ k1_cond2 i = 1#1)
    (arg2 : Memref sig .tc .vmem S2048x1 .f32) (harg2 : arg2.IsWhole) (arg3 : Memref sig .tc .vmem S2048x2048 .f32) (harg3 : arg3.IsWhole)
    (x0 : Vec F S2048x1 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (diagBlock1 x0)) -∗ K ⟨⟩))
      ⊢ wp frame (wpE (defs₀ (F := F)) Variants.none c none) E (cc1__diag_kernel i arg2 harg2 arg3 harg3) K := by
  simp only [cc1__diag_kernel_eq_skeleton]; unfold cc1__diag_kernel_skel
  unfold owns
  iintro ⟨⟨%f0, %hf0, H0⟩, ⟨%d1, %f1, -, H1⟩, Hk⟩
  subst hf0
  sl_exec (disch := first | exact hc1 | exact hc2)
  sl_step
  iapply Hk
  isplitl [H0]
  · iexists f0; isplitr; · ipureintro; rfl
    iexact H0
  iexists _; isplitr
  swap; · iexact H1
  ipureintro
  exact View.read_writes_eq_canon _ _ _ (cover_out1 _)

set_option maxHeartbeats 1000000 in
/-- Where they differ: the body runs to the continuation holding the input's memref as it was and the output's at zero. -/
theorem sound_kernel1_off (c : Dev nD) (E : Set ℕ) (i : grid1.Coords) (hc1 : ¬ k1_cond1 i = 1#1) (hc2 : k1_cond2 i = 1#1)
    (arg2 : Memref sig .tc .vmem S2048x1 .f32) (harg2 : arg2.IsWhole) (arg3 : Memref sig .tc .vmem S2048x2048 .f32) (harg3 : arg3.IsWhole)
    (x0 : Vec F S2048x1 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (zeroBlock1 (F := F))) -∗ K ⟨⟩))
      ⊢ wp frame (wpE (defs₀ (F := F)) Variants.none c none) E (cc1__diag_kernel i arg2 harg2 arg3 harg3) K := by
  simp only [cc1__diag_kernel_eq_skeleton]; unfold cc1__diag_kernel_skel
  unfold owns
  iintro ⟨⟨%f0, %hf0, H0⟩, ⟨%d1, %f1, -, H1⟩, Hk⟩
  subst hf0
  sl_exec (disch := first | exact hc1 | exact hc2)
  sl_step
  iapply Hk
  isplitl [H0]
  · iexists f0; isplitr; · ipureintro; rfl
    iexact H0
  iexists _; isplitr
  swap; · iexact H1
  ipureintro
  exact View.read_writes_eq_canon _ _ _ (cover_out1 _)

/-! ## The pipeline's proof data -/

/-- The proof data of the pipeline on core c: the arrays as the region finds them; after the body at point t the
    input's buffer at its block and the output's at what the point's branch stores; the invariant the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => outBlock1 (grid1.coords t) (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = outBlock1 (grid1.coords t) (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the input's memref holds its block, and the point takes one of the two branches, whose
    triple applies; the invariant and the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  rcases branch1 t with ⟨h1, h2⟩ | ⟨h1, h2⟩
  · rw [show outBlock1 (grid1.coords t) (iblk1 V c 0 t) = diagBlock1 (iblk1 V c 0 t) from if_pos h1]
    iintro ⟨HΦ, Ho, ⟨%d0, H0⟩, ⟨%d1, H1⟩⟩
    iapply (sound_kernel1_diag c Set.univ _ h1 h2 _ _ _ _ (iblk1 V c 0 t) _)
    isplitl [H0]; · iexact H0
    isplitl [H1]; · iexists _; iexact H1
    iintro ⟨H0, H1⟩
    isplitl [HΦ]; · iexact HΦ
    isplitl [Ho]; · iexact Ho
    isplitl [H0]; · iexact H0
    iexact H1
  · rw [show outBlock1 (grid1.coords t) (iblk1 V c 0 t) = zeroBlock1 from if_neg h1]
    iintro ⟨HΦ, Ho, ⟨%d0, H0⟩, ⟨%d1, H1⟩⟩
    iapply (sound_kernel1_off c Set.univ _ h1 h2 _ _ _ _ (iblk1 V c 0 t) _)
    isplitl [H0]; · iexact H0
    isplitl [H1]; · iexists _; iexact H1
    iintro ⟨H0, H1⟩
    isplitl [HΦ]; · iexact HΦ
    isplitl [Ho]; · iexact Ho
    isplitl [H0]; · iexact H0
    iexact H1

/-- The library's body obligation, at every point: the output window is live at every point and written back at every
    point, so what the obligation asks of its buffer is the stated contents. -/
theorem body_obligation1 (c : Dev nD) : BodyObligation (dat1 (F := F) V c) (defs₀ (F := F)) Variants.none () Set.univ := fun t => by
  rw [bigSep_W1, bigSep_W1]
  simp only [live1 t]
  exact sound_body1 V c t

end Cert.Kernel.Hand

end
-- ==== Proof.KBRun.lean ====
/-
  The whole program's run, at any float instance: the first kernel region, the fifteen host operations between the
  regions (the reshape of the row sums to a vector, the softmax chain, the reshape back to a column), the second kernel
  region. The buffers' contents at each boundary are a fold from the launch memory: a region leaves each of its arrays
  at what its write-backs leave (an input as entered, the output with every point's block written back in order) and
  every other buffer as entered; the host stretch applies its operations in order. Every weakly fair execution from a
  memory with zero counters terminates, faulting nowhere, with every unscoped buffer at the last boundary's contents:
  so the two arguments end as launched (no host operation writes one, and a region only reads them through input
  windows), and the result buffer ends at what the second region's write-backs leave.
-/
import proofs.«153484_j25091198943263_1_alg».proof.Proof.KBRegion0
import proofs.«153484_j25091198943263_1_alg».proof.Proof.KBRegion1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch (the first region's entry). -/
abbrev B0 : Dev nD → Valuation τ sig (Elt F) := fun c b => (s₀ m ρ).mem ((c : Dev nD), b)
abbrev C0 : (c : Dev nD) → (b : Ref sig .tc) → Buf (Elt F) ((c : Thread nD τ).loc b) := fun c b => B0 m ρ c b
/-- At the first region's exit: its arrays at what the pipeline leaves, every other buffer as entered. -/
def B1 (c : Dev nD) : Valuation τ sig (Elt F) :=
  Pipeline.withArrays spec0 c (B0 m ρ c) fun w => (dat0 (C0 m ρ) c).arrAt w cfg0.N
theorem B1_arr (c : Dev nD) (w : Fin cfg0.W) :
    B1 m ρ c (Proc.devRef .tc (Pipeline.arrRef spec0 w)) = (dat0 (C0 m ρ) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m ρ c (Proc.devRef .tc b) = B0 m ρ c (Proc.devRef .tc b) := by
  unfold B1; exact Pipeline.withArrays_of_ne spec0 c _ _ b hb
abbrev C1 : (c : Dev nD) → (b : Ref sig .tc) → Buf (Elt F) ((c : Thread nD τ).loc b) := fun c b => B1 m ρ c b
theorem hF0 (c : Dev nD) (w : Fin cfg0.W) : (dat0 (C0 m ρ) c).arrAt w cfg0.N = C1 m ρ c (Pipeline.arrRef spec0 w) :=
  (B1_arr m ρ c w).symm
theorem hrest0 (c : Dev nD) : ∀ b, b ∉ Finset.univ.image (Pipeline.arrRef spec0) → C1 m ρ c b = C0 m ρ c b :=
  fun b hb => B1_of_ne m ρ c b fun w e => hb (Finset.mem_image.mpr ⟨w, Finset.mem_univ _, e⟩)

/-- After the host stretch (the second region's entry). -/
abbrev B2 : Dev nD → Valuation τ sig (Elt F) := fun c => StableHlo.after hostOps1 (B1 m ρ c)
abbrev C2 : (c : Dev nD) → (b : Ref sig .tc) → Buf (Elt F) ((c : Thread nD τ).loc b) := fun c b => B2 m ρ c b
/-- At the second region's exit: its arrays at what the pipeline leaves, every other buffer as entered. -/
def B3 (c : Dev nD) : Valuation τ sig (Elt F) :=
  Pipeline.withArrays spec1 c (B2 m ρ c) fun w => (dat1 (C2 m ρ) c).arrAt w cfg1.N
theorem B3_arr (c : Dev nD) (w : Fin cfg1.W) :
    B3 m ρ c (Proc.devRef .tc (Pipeline.arrRef spec1 w)) = (dat1 (C2 m ρ) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m ρ c (Proc.devRef .tc b) = B2 m ρ c (Proc.devRef .tc b) := by
  unfold B3; exact Pipeline.withArrays_of_ne spec1 c _ _ b hb
abbrev C3 : (c : Dev nD) → (b : Ref sig .tc) → Buf (Elt F) ((c : Thread nD τ).loc b) := fun c b => B3 m ρ c b
theorem hF1 (c : Dev nD) (w : Fin cfg1.W) : (dat1 (C2 m ρ) c).arrAt w cfg1.N = C3 m ρ c (Pipeline.arrRef spec1 w) :=
  (B3_arr m ρ c w).symm
theorem hrest1 (c : Dev nD) : ∀ b, b ∉ Finset.univ.image (Pipeline.arrRef spec1) → C3 m ρ c b = C2 m ρ c b :=
  fun b hb => B3_of_ne m ρ c b fun w e => hb (Finset.mem_image.mpr ⟨w, Finset.mem_univ _, e⟩)

/-! ### The arguments end as launched -/

theorem B3_main_arg0 (c : Dev nD) : B3 m ρ c (Proc.devRef .tc main_arg0) = m ((c : Thread nD τ).loc main_arg0) :=
  calc B3 m ρ c (Proc.devRef .tc main_arg0)
    _ = B2 m ρ c (Proc.devRef .tc main_arg0) := B3_of_ne m ρ c main_arg0 (by decide)
    _ = B1 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B0 m ρ c (Proc.devRef .tc main_arg0) := (B1_arr m ρ c 0).trans (((dat0 (C0 m ρ) c).arrAt_in 0 rfl _).trans (A_eq0 (C0 m ρ) c 0))
    _ = m ((c : Thread nD τ).loc main_arg0) := rfl

theorem B3_main_arg1 (c : Dev nD) : B3 m ρ c (Proc.devRef .tc main_arg1) = m ((c : Thread nD τ).loc main_arg1) :=
  calc B3 m ρ c (Proc.devRef .tc main_arg1)
    _ = B2 m ρ c (Proc.devRef .tc main_arg1) := B3_of_ne m ρ c main_arg1 (by decide)
    _ = B1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B0 m ρ c (Proc.devRef .tc main_arg1) := (B1_arr m ρ c 1).trans (((dat0 (C0 m ρ) c).arrAt_in 1 rfl _).trans (A_eq0 (C0 m ρ) c 1))
    _ = m ((c : Thread nD τ).loc main_arg1) := rfl

/-- The result buffer ends at what the second region's write-backs leave of it. -/
theorem B3_main_v13 (c : Dev nD) : B3 m ρ c (Proc.devRef .tc main_v13) = (dat1 (C2 m ρ) c).arrAt 1 cfg1.N :=
  B3_arr m ρ c 1

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (C0 m ρ) c
  | ⟨1, _⟩ => fun c => dat1 (C2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the host stretch allocates a buffer. -/
theorem hostOps1_noalloc : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tlast (c : Dev nD) : sProp 𝕄 := iprop(StableHlo.held (c : Thread nD τ) (Pipeline.ucRefs τ sig) (B3 m ρ c) ∗ ∃ r, prngReg c r)

/-! ## The regions as segments -/

set_option backward.isDefEq.respectTransparency.types false in
/-- Region 0 over the thread state: its arrays split out of the unscoped buffers at entry and put back at the exit
    contents; the generator register into the invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (C0 m ρ) c).loose
  hwaits := Pipeline.hwaits_of_owed_zero _ _ _ _ L lv 0 fun _ _ => rfl
  pre c := iprop(StableHlo.held (c : Thread nD τ) (Pipeline.ucRefs τ sig) (B0 m ρ c) ∗ R c)
  post c := iprop(StableHlo.held (c : Thread nD τ) (Pipeline.ucRefs τ sig) (B1 m ρ c) ∗ R c)
  X c := iprop(∃ r, prngReg c r)
  Y c := iprop(∃ r, prngReg c r)
  Z c := Pipeline.unscopedRest (Ix := Unit) (Name := ℕ) (U := UR sig nD τ) (Lvl := ℕ) spec0 c (C0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (C0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (C0 m ρ c) (C1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: its arrays split out of the unscoped buffers at entry and put back at the exit
    contents; the generator register into the invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (C2 m ρ) c).loose
  hwaits := Pipeline.hwaits_of_owed_zero _ _ _ _ L lv 1 fun _ _ => rfl
  pre c := iprop(StableHlo.held (c : Thread nD τ) (Pipeline.ucRefs τ sig) (B2 m ρ c) ∗ R c)
  post c := iprop(Tlast m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (C2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (C2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (C2 m ρ c) (C3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ),
    .host (hseg hostOps1 hostOps1_sub hostOps1_noalloc (B1 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution terminates, nothing faulting, and the
    final state has the result buffer at what the second region's write-backs leave and the two arguments as launched. -/
theorem run : θ_run defs (onTc (τ := τ) (main (F := F))) ⟨m, fun _ => 0, ρ⟩ (fun r => ∀ c : Dev nD,
      r.2.mem ((c.tc : Thread nD τ).loc main_v13) = (dat1 (C2 m ρ) c).arrAt 1 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tlast m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m ρ c b)
    (hfin := fun c s' => by
      iintro ⟨⟨Hh, -⟩, HSI⟩
      unfold StableHlo.held
      imodintro
      iapply (pointsTo_read_all (Pipeline.ucRefs τ sig) (fun b => (((c : Thread nD τ)).1, b)) (B3 m ρ c) s')
      isplitl [Hh] <;> iassumption)
    (hQ := fun s h c =>
      ⟨(h c _ (mem_uc main_v13 (by decide))).trans (B3_main_v13 m ρ c),
       (h c _ (mem_uc main_arg0 (by decide))).trans (B3_main_arg0 m ρ c),
       (h c _ (mem_uc main_arg1 (by decide))).trans (B3_main_arg1 m ρ c)⟩)

end Cert.Kernel.Hand

end
-- ==== Proof.KIRegion0.lean ====
/-
  The first kernel region (the row-dot kernel, grid of 4 points) as the pipeline runs it, at any float instance.

  Point t stages rows 2048·t … 2048·t+2047 of the two [8192, 1024] arguments and writes back the [2048, 1] block of
  the result at the same rows. The body loads both staged blocks whole, and stores, over the whole output block, one
  value: the lane sum of their entrywise product, as a column. Nothing is carried from point to point, so what the
  body leaves in each staging buffer is a function of the two input blocks alone; that function, the triple of the
  body run symbolically, and the proof data of the pipeline (arrays as the region finds them, each input's buffer at
  its block, the output's at that function of the blocks) are stated here at a parameter V, the buffers' contents
  when the region is entered.
-/
import proofs.«153484_j25091198943263_1_alg».proof.Proof.Gen.KernelIdeal.Launch
import proofs.«153484_j25091198943263_1_alg».proof.Proof.Gen.KernelIdeal.Skeleton
import proofs.«153484_j25091198943263_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: unfetched, the
    block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole block -/

abbrev rIn0 : Rect S2048x1024 := Rect.unit (s := S2048x1024) ![0, 0] S2048x1024.size inb_S2048x1024_S2048x1024_0_0
abbrev rOut0 : Rect S2048x1 := Rect.unit (s := S2048x1) ![0, 0] S2048x1.size inb_S2048x1_S2048x1_0_0

/-- What the body leaves in the output's staging buffer, from the two input blocks: its one store, of the column of
    lane sums of the blocks' entrywise product, over the whole block. -/
def rowSums0 (x0 x1 : Vec F S2048x1024 .f32) : Vec F S2048x1 .f32 :=
  View.canon [⟨rOut0, k0_pay1 (View.ld x0 rIn0) (View.ld x1 rIn0)⟩]

/-- That store covers the block. -/
theorem cover_rowSums0 (p0 : Vec F S2048x1 .f32) (y : S2048x1.Idx) :
    ∃ pc ∈ ([⟨rOut0, p0⟩] : List (View.Piece (Elt F) S2048x1 .f32)), y ∈ pc.1.set :=
  View.cover_of_tiled [⟨rOut0, p0⟩] S2048x1.size (by rfl) y

/-! ## The body's triple -/

set_option maxHeartbeats 1000000 in
/-- The body on whole staging memrefs, the inputs' at contents x0, x1 and the output's at anything, runs to the
    continuation holding the inputs' as they were and the output's at the column of row sums. -/
theorem sound_kernel0 (c : Dev nD) (E : Set ℕ) (i : grid0.Coords)
    (arg1 : Memref sig .tc .vmem S2048x1024 .f32) (harg1 : arg1.IsWhole) (arg2 : Memref sig .tc .vmem S2048x1024 .f32) (harg2 : arg2.IsWhole)
    (arg3 : Memref sig .tc .vmem S2048x1 .f32) (harg3 : arg3.IsWhole)
    (x0 x1 : Vec F S2048x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (rowSums0 x0 x1)) -∗ K ⟨⟩))
      ⊢ wp frame (wpE (defs₀ (F := F)) Variants.none c none) E (cc0__reduce_kernel i arg1 harg1 arg2 harg2 arg3 harg3) K := by
  simp only [cc0__reduce_kernel_eq_skeleton]; unfold cc0__reduce_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_rowSums0 _)

/-! ## The pipeline's proof data -/

/-- The proof data of the pipeline on core c: the arrays as the region finds them; after the body at point t each
    input's buffer at its block and the output's at the row sums of the two blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => rowSums0 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = rowSums0 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIRegion1.lean ====
/-
  The second kernel region (the diagonal kernel, 4 x 4 grid) as the pipeline runs it, at any float instance.

  Point (i, j) stages rows 2048·i … 2048·i+2047 of the [8192, 1] column and writes back block (i, j), of 2048 x 2048
  entries, of the [8192, 8192] result. The body has two branches on the point's coordinates, of which exactly one is
  taken at every point: where i = j it loads the staged column and stores, over the whole output block, the column
  broadcast along the rows where the entry's row and column inside the block agree and zero elsewhere; where i ≠ j it
  stores zero over the whole block. Either way the output block is overwritten whole and nothing is carried between
  points, so what the body leaves is a function of the point and the staged column alone. Stated here at a parameter
  V, the buffers' contents when the region is entered: that function, the body's triple in each of the two cases,
  and the proof data of the pipeline.
-/
import proofs.«153484_j25091198943263_1_alg».proof.Proof.Gen.KernelIdeal.Launch
import proofs.«153484_j25091198943263_1_alg».proof.Proof.Gen.KernelIdeal.Skeleton
import proofs.«153484_j25091198943263_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, fetched there or not (it is fetched
    only when the row coordinate moves; unfetched, the block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The two branches over the grid -/

/-- At every point exactly one of the body's two branches is taken: the first where the coordinates agree, the second
    where they differ (decided over the 16 points). -/
theorem branch1 : ∀ t : Fin cfg1.N, (k1_cond1 (grid1.coords t) = 1#1 ∧ ¬ k1_cond2 (grid1.coords t) = 1#1)
      ∨ (¬ k1_cond1 (grid1.coords t) = 1#1 ∧ k1_cond2 (grid1.coords t) = 1#1) :=
  (by decide +kernel : ∀ t : Fin grid1.N, (k1_cond1 (grid1.coords t) = 1#1 ∧ ¬ k1_cond2 (grid1.coords t) = 1#1)
      ∨ (¬ k1_cond1 (grid1.coords t) = 1#1 ∧ k1_cond2 (grid1.coords t) = 1#1))

/-- So the output window is idle at no point. -/
theorem live1 : ∀ t : Fin cfg1.N, idle1 1 (grid1.coords t) = false :=
  (by decide +kernel : ∀ t : Fin grid1.N, idle1 1 (grid1.coords t) = false)

/-! ## The body's accesses: each a whole block -/

abbrev rIn1 : Rect S2048x1 := Rect.unit (s := S2048x1) ![0, 0] S2048x1.size inb_S2048x1_S2048x1_0_0
abbrev rOut1 : Rect S2048x2048 := Rect.unit (s := S2048x2048) ![0, 0] S2048x2048.size inb_S2048x2048_S2048x2048_0_0

/-- What the first branch leaves in the output's buffer: its one store, of the masked broadcast of the staged column. -/
def diagBlock1 (x0 : Vec F S2048x1 .f32) : Vec F S2048x2048 .f32 :=
  View.canon [⟨rOut1, k1_pay1 (View.ld x0 rIn1)⟩]

/-- What the second branch leaves there: its one store, of zero. -/
def zeroBlock1 : Vec F S2048x2048 .f32 :=
  View.canon [⟨rOut1, k1_pay2 (F := F)⟩]

/-- What the body leaves in the output's buffer at grid coordinates i, from the staged column. -/
def outBlock1 (i : grid1.Coords) (x0 : Vec F S2048x1 .f32) : Vec F S2048x2048 .f32 :=
  if k1_cond1 i = 1#1 then diagBlock1 x0 else zeroBlock1

/-- Either store covers the block. -/
theorem cover_out1 (p0 : Vec F S2048x2048 .f32) (y : S2048x2048.Idx) :
    ∃ pc ∈ ([⟨rOut1, p0⟩] : List (View.Piece (Elt F) S2048x2048 .f32)), y ∈ pc.1.set :=
  View.cover_of_tiled [⟨rOut1, p0⟩] S2048x2048.size (by rfl) y

/-! ## The body's triple, branch by branch -/

set_option maxHeartbeats 1000000 in
/-- Where the coordinates agree: the input's memref at contents x0 and the output's at anything, the body runs to the
    continuation holding the input's as it was and the output's at the masked broadcast of x0. -/
theorem sound_kernel1_diag (c : Dev nD) (E : Set ℕ) (i : grid1.Coords) (hc1 : k1_cond1 i = 1#1) (hc2 : ¬ k1_cond2 i = 1#1)
    (arg2 : Memref sig .tc .vmem S2048x1 .f32) (harg2 : arg2.IsWhole) (arg3 : Memref sig .tc .vmem S2048x2048 .f32) (harg3 : arg3.IsWhole)
    (x0 : Vec F S2048x1 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (diagBlock1 x0)) -∗ K ⟨⟩))
      ⊢ wp frame (wpE (defs₀ (F := F)) Variants.none c none) E (cc1__diag_kernel i arg2 harg2 arg3 harg3) K := by
  simp only [cc1__diag_kernel_eq_skeleton]; unfold cc1__diag_kernel_skel
  unfold owns
  iintro ⟨⟨%f0, %hf0, H0⟩, ⟨%d1, %f1, -, H1⟩, Hk⟩
  subst hf0
  sl_exec (disch := first | exact hc1 | exact hc2)
  sl_step
  iapply Hk
  isplitl [H0]
  · iexists f0; isplitr; · ipureintro; rfl
    iexact H0
  iexists _; isplitr
  swap; · iexact H1
  ipureintro
  exact View.read_writes_eq_canon _ _ _ (cover_out1 _)

set_option maxHeartbeats 1000000 in
/-- Where they differ: the body runs to the continuation holding the input's memref as it was and the output's at zero. -/
theorem sound_kernel1_off (c : Dev nD) (E : Set ℕ) (i : grid1.Coords) (hc1 : ¬ k1_cond1 i = 1#1) (hc2 : k1_cond2 i = 1#1)
    (arg2 : Memref sig .tc .vmem S2048x1 .f32) (harg2 : arg2.IsWhole) (arg3 : Memref sig .tc .vmem S2048x2048 .f32) (harg3 : arg3.IsWhole)
    (x0 : Vec F S2048x1 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (zeroBlock1 (F := F))) -∗ K ⟨⟩))
      ⊢ wp frame (wpE (defs₀ (F := F)) Variants.none c none) E (cc1__diag_kernel i arg2 harg2 arg3 harg3) K := by
  simp only [cc1__diag_kernel_eq_skeleton]; unfold cc1__diag_kernel_skel
  unfold owns
  iintro ⟨⟨%f0, %hf0, H0⟩, ⟨%d1, %f1, -, H1⟩, Hk⟩
  subst hf0
  sl_exec (disch := first | exact hc1 | exact hc2)
  sl_step
  iapply Hk
  isplitl [H0]
  · iexists f0; isplitr; · ipureintro; rfl
    iexact H0
  iexists _; isplitr
  swap; · iexact H1
  ipureintro
  exact View.read_writes_eq_canon _ _ _ (cover_out1 _)

/-! ## The pipeline's proof data -/

/-- The proof data of the pipeline on core c: the arrays as the region finds them; after the body at point t the
    input's buffer at its block and the output's at what the point's branch stores; the invariant the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => outBlock1 (grid1.coords t) (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = outBlock1 (grid1.coords t) (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the input's memref holds its block, and the point takes one of the two branches, whose
    triple applies; the invariant and the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  rcases branch1 t with ⟨h1, h2⟩ | ⟨h1, h2⟩
  · rw [show outBlock1 (grid1.coords t) (iblk1 V c 0 t) = diagBlock1 (iblk1 V c 0 t) from if_pos h1]
    iintro ⟨HΦ, Ho, ⟨%d0, H0⟩, ⟨%d1, H1⟩⟩
    iapply (sound_kernel1_diag c Set.univ _ h1 h2 _ _ _ _ (iblk1 V c 0 t) _)
    isplitl [H0]; · iexact H0
    isplitl [H1]; · iexists _; iexact H1
    iintro ⟨H0, H1⟩
    isplitl [HΦ]; · iexact HΦ
    isplitl [Ho]; · iexact Ho
    isplitl [H0]; · iexact H0
    iexact H1
  · rw [show outBlock1 (grid1.coords t) (iblk1 V c 0 t) = zeroBlock1 from if_neg h1]
    iintro ⟨HΦ, Ho, ⟨%d0, H0⟩, ⟨%d1, H1⟩⟩
    iapply (sound_kernel1_off c Set.univ _ h1 h2 _ _ _ _ (iblk1 V c 0 t) _)
    isplitl [H0]; · iexact H0
    isplitl [H1]; · iexists _; iexact H1
    iintro ⟨H0, H1⟩
    isplitl [HΦ]; · iexact HΦ
    isplitl [Ho]; · iexact Ho
    isplitl [H0]; · iexact H0
    iexact H1

/-- The library's body obligation, at every point: the output window is live at every point and written back at every
    point, so what the obligation asks of its buffer is the stated contents. -/
theorem body_obligation1 (c : Dev nD) : BodyObligation (dat1 (F := F) V c) (defs₀ (F := F)) Variants.none () Set.univ := fun t => by
  rw [bigSep_W1, bigSep_W1]
  simp only [live1 t]
  exact sound_body1 V c t

end Cert.KernelIdeal.Hand

end
-- ==== Proof.KIRun.lean ====
/-
  The whole program's run, at any float instance: the first kernel region, the fifteen host operations between the
  regions (the reshape of the row sums to a vector, the softmax chain, the reshape back to a column), the second kernel
  region. The buffers' contents at each boundary are a fold from the launch memory: a region leaves each of its arrays
  at what its write-backs leave (an input as entered, the output with every point's block written back in order) and
  every other buffer as entered; the host stretch applies its operations in order. Every weakly fair execution from a
  memory with zero counters terminates, faulting nowhere, with every unscoped buffer at the last boundary's contents:
  so the two arguments end as launched (no host operation writes one, and a region only reads them through input
  windows), and the result buffer ends at what the second region's write-backs leave.
-/
import proofs.«153484_j25091198943263_1_alg».proof.Proof.KIRegion0
import proofs.«153484_j25091198943263_1_alg».proof.Proof.KIRegion1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch (the first region's entry). -/
abbrev B0 : Dev nD → Valuation τ sig (Elt F) := fun c b => (s₀ m ρ).mem ((c : Dev nD), b)
abbrev C0 : (c : Dev nD) → (b : Ref sig .tc) → Buf (Elt F) ((c : Thread nD τ).loc b) := fun c b => B0 m ρ c b
/-- At the first region's exit: its arrays at what the pipeline leaves, every other buffer as entered. -/
def B1 (c : Dev nD) : Valuation τ sig (Elt F) :=
  Pipeline.withArrays spec0 c (B0 m ρ c) fun w => (dat0 (C0 m ρ) c).arrAt w cfg0.N
theorem B1_arr (c : Dev nD) (w : Fin cfg0.W) :
    B1 m ρ c (Proc.devRef .tc (Pipeline.arrRef spec0 w)) = (dat0 (C0 m ρ) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m ρ c (Proc.devRef .tc b) = B0 m ρ c (Proc.devRef .tc b) := by
  unfold B1; exact Pipeline.withArrays_of_ne spec0 c _ _ b hb
abbrev C1 : (c : Dev nD) → (b : Ref sig .tc) → Buf (Elt F) ((c : Thread nD τ).loc b) := fun c b => B1 m ρ c b
theorem hF0 (c : Dev nD) (w : Fin cfg0.W) : (dat0 (C0 m ρ) c).arrAt w cfg0.N = C1 m ρ c (Pipeline.arrRef spec0 w) :=
  (B1_arr m ρ c w).symm
theorem hrest0 (c : Dev nD) : ∀ b, b ∉ Finset.univ.image (Pipeline.arrRef spec0) → C1 m ρ c b = C0 m ρ c b :=
  fun b hb => B1_of_ne m ρ c b fun w e => hb (Finset.mem_image.mpr ⟨w, Finset.mem_univ _, e⟩)

/-- After the host stretch (the second region's entry). -/
abbrev B2 : Dev nD → Valuation τ sig (Elt F) := fun c => StableHlo.after hostOps1 (B1 m ρ c)
abbrev C2 : (c : Dev nD) → (b : Ref sig .tc) → Buf (Elt F) ((c : Thread nD τ).loc b) := fun c b => B2 m ρ c b
/-- At the second region's exit: its arrays at what the pipeline leaves, every other buffer as entered. -/
def B3 (c : Dev nD) : Valuation τ sig (Elt F) :=
  Pipeline.withArrays spec1 c (B2 m ρ c) fun w => (dat1 (C2 m ρ) c).arrAt w cfg1.N
theorem B3_arr (c : Dev nD) (w : Fin cfg1.W) :
    B3 m ρ c (Proc.devRef .tc (Pipeline.arrRef spec1 w)) = (dat1 (C2 m ρ) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m ρ c (Proc.devRef .tc b) = B2 m ρ c (Proc.devRef .tc b) := by
  unfold B3; exact Pipeline.withArrays_of_ne spec1 c _ _ b hb
abbrev C3 : (c : Dev nD) → (b : Ref sig .tc) → Buf (Elt F) ((c : Thread nD τ).loc b) := fun c b => B3 m ρ c b
theorem hF1 (c : Dev nD) (w : Fin cfg1.W) : (dat1 (C2 m ρ) c).arrAt w cfg1.N = C3 m ρ c (Pipeline.arrRef spec1 w) :=
  (B3_arr m ρ c w).symm
theorem hrest1 (c : Dev nD) : ∀ b, b ∉ Finset.univ.image (Pipeline.arrRef spec1) → C3 m ρ c b = C2 m ρ c b :=
  fun b hb => B3_of_ne m ρ c b fun w e => hb (Finset.mem_image.mpr ⟨w, Finset.mem_univ _, e⟩)

/-! ### The arguments end as launched -/

theorem B3_main_arg0 (c : Dev nD) : B3 m ρ c (Proc.devRef .tc main_arg0) = m ((c : Thread nD τ).loc main_arg0) :=
  calc B3 m ρ c (Proc.devRef .tc main_arg0)
    _ = B2 m ρ c (Proc.devRef .tc main_arg0) := B3_of_ne m ρ c main_arg0 (by decide)
    _ = B1 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B0 m ρ c (Proc.devRef .tc main_arg0) := (B1_arr m ρ c 0).trans (((dat0 (C0 m ρ) c).arrAt_in 0 rfl _).trans (A_eq0 (C0 m ρ) c 0))
    _ = m ((c : Thread nD τ).loc main_arg0) := rfl

theorem B3_main_arg1 (c : Dev nD) : B3 m ρ c (Proc.devRef .tc main_arg1) = m ((c : Thread nD τ).loc main_arg1) :=
  calc B3 m ρ c (Proc.devRef .tc main_arg1)
    _ = B2 m ρ c (Proc.devRef .tc main_arg1) := B3_of_ne m ρ c main_arg1 (by decide)
    _ = B1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B0 m ρ c (Proc.devRef .tc main_arg1) := (B1_arr m ρ c 1).trans (((dat0 (C0 m ρ) c).arrAt_in 1 rfl _).trans (A_eq0 (C0 m ρ) c 1))
    _ = m ((c : Thread nD τ).loc main_arg1) := rfl

/-- The result buffer ends at what the second region's write-backs leave of it. -/
theorem B3_main_v13 (c : Dev nD) : B3 m ρ c (Proc.devRef .tc main_v13) = (dat1 (C2 m ρ) c).arrAt 1 cfg1.N :=
  B3_arr m ρ c 1

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (C0 m ρ) c
  | ⟨1, _⟩ => fun c => dat1 (C2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the host stretch allocates a buffer. -/
theorem hostOps1_noalloc : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tlast (c : Dev nD) : sProp 𝕄 := iprop(StableHlo.held (c : Thread nD τ) (Pipeline.ucRefs τ sig) (B3 m ρ c) ∗ ∃ r, prngReg c r)

/-! ## The regions as segments -/

set_option backward.isDefEq.respectTransparency.types false in
/-- Region 0 over the thread state: its arrays split out of the unscoped buffers at entry and put back at the exit
    contents; the generator register into the invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (C0 m ρ) c).loose
  hwaits := Pipeline.hwaits_of_owed_zero _ _ _ _ L lv 0 fun _ _ => rfl
  pre c := iprop(StableHlo.held (c : Thread nD τ) (Pipeline.ucRefs τ sig) (B0 m ρ c) ∗ R c)
  post c := iprop(StableHlo.held (c : Thread nD τ) (Pipeline.ucRefs τ sig) (B1 m ρ c) ∗ R c)
  X c := iprop(∃ r, prngReg c r)
  Y c := iprop(∃ r, prngReg c r)
  Z c := Pipeline.unscopedRest (Ix := Unit) (Name := ℕ) (U := UR sig nD τ) (Lvl := ℕ) spec0 c (C0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (C0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (C0 m ρ c) (C1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: its arrays split out of the unscoped buffers at entry and put back at the exit
    contents; the generator register into the invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (C2 m ρ) c).loose
  hwaits := Pipeline.hwaits_of_owed_zero _ _ _ _ L lv 1 fun _ _ => rfl
  pre c := iprop(StableHlo.held (c : Thread nD τ) (Pipeline.ucRefs τ sig) (B2 m ρ c) ∗ R c)
  post c := iprop(Tlast m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (C2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (C2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (C2 m ρ c) (C3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ),
    .host (hseg hostOps1 hostOps1_sub hostOps1_noalloc (B1 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution terminates, nothing faulting, and the
    final state has the result buffer at what the second region's write-backs leave and the two arguments as launched. -/
theorem run : θ_run defs (onTc (τ := τ) (main (F := F))) ⟨m, fun _ => 0, ρ⟩ (fun r => ∀ c : Dev nD,
      r.2.mem ((c.tc : Thread nD τ).loc main_v13) = (dat1 (C2 m ρ) c).arrAt 1 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tlast m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m ρ c b)
    (hfin := fun c s' => by
      iintro ⟨⟨Hh, -⟩, HSI⟩
      unfold StableHlo.held
      imodintro
      iapply (pointsTo_read_all (Pipeline.ucRefs τ sig) (fun b => (((c : Thread nD τ)).1, b)) (B3 m ρ c) s')
      isplitl [Hh] <;> iassumption)
    (hQ := fun s h c =>
      ⟨(h c _ (mem_uc main_v13 (by decide))).trans (B3_main_v13 m ρ c),
       (h c _ (mem_uc main_arg0 (by decide))).trans (B3_main_arg0 m ρ c),
       (h c _ (mem_uc main_arg1 (by decide))).trans (B3_main_arg1 m ρ c)⟩)

end Cert.KernelIdeal.Hand

end
-- ==== Proof.LibRowReduce.lean ====
/-
  A reduction of a matrix along its second axis, read at a row.

  On the extended reals a `vector.multi_reduction` of an `[a, b]` array over axis 1 into `[a]` is, at row `p`,
  the sum (for `add`), the maximum folded from the accumulator's value (for `maximumf`) or the minimum folded from
  the accumulator's value (for `minimumf`) of the row's entries `(p, k)`, `k : Fin b`. The library reads such a
  reduction over the coordinates of the dropped axis with the reduced index re-inserted; here the re-inserted index is
  written by its coordinates. Also: the f32 words of minus infinity and of 8192.
-/
import Idealize.ShloMosaic.PureOps.Ideal.Laws
import Idealize.ShloMosaic.Lib.ValueIdx

namespace Idealize.ShloMosaic.RowReduce

open Idealize.ShloMosaic Idealize.ShloMosaic.ValueIdx

/-- Row `p` with column `k` inserted on the dropped axis is the index `(p, k)`. -/
theorem lift_row {a b : ℕ} (h : (⟨2, ![a, b]⟩ : Shape).Reduces [1] ⟨1, ![a]⟩) (p : Fin a) (k : Fin b) :
    h.lift (ix1 p) k = ix2 p k := by
  funext c
  apply Fin.ext
  match c with
  | ⟨0, _⟩ => rfl
  | ⟨1, _⟩ => rfl

/-- A sum along the rows: at row `p`, the sum over `k` of the entries `(p, k)`. -/
theorem multiReduction_add_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- A maximum along the rows: at row `p`, the maximum folded from the accumulator's value over the entries `(p, k)`. -/
theorem multiReduction_maximumf_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) := by
  rw [Ideal.multiReduction_maximumf_single]
  exact congrArg (fun f : Fin b → EReal => (Finset.univ : Finset (Fin b)).fold max (Ideal.ofBits φ acc) f)
    (funext fun k => congrArg src (lift_row h p k))

/-- A minimum along the rows: at row `p`, the minimum folded from the accumulator's value over the entries `(p, k)`. -/
theorem multiReduction_minimumf_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ)
    (p : Fin a) :
    multiReduction .minimumf [1] ⟨1, ![a]⟩ src acc h hφ hacc (ix1 p)
      = (Finset.univ : Finset (Fin b)).fold min (Ideal.ofBits φ acc) (fun k => src (ix2 p k)) := by
  classical
  rw [multiReduction_minimumf_eq_fold]
  refine (h.fold_filter_drop_single _ _ src (ix1 p)).trans ?_
  exact congrArg (fun f : Fin b → EReal => (Finset.univ : Finset (Fin b)).fold min (Ideal.ofBits φ acc) f)
    (funext fun k => congrArg src (lift_row h p k))

/-- The f32 word of minus infinity is the bottom element. -/
theorem ofBits_neg_inf : Ideal.ofBits .f32 0xFF800000#32 = ⊥ := by
  simp [Ideal.ofBits, Ideal.ieee]

/-- The f32 word `0x46000000` is the real number 8192. -/
theorem ofBits_8192 : Ideal.ofBits .f32 0x46000000#32 = ((8192 : ℝ) : EReal) := by
  simp [Ideal.ofBits, Ideal.ieee, -EReal.coe_mul]; norm_num

end Idealize.ShloMosaic.RowReduce
-- ==== Proof.LibVectorAsColumn.lean ====
/-
  A vector viewed as a one-column matrix, read at an index given by coordinates: an `[a]` array cast to `[a, 1]` (what
  `v.reshape(a, 1)` or `v[:, None]` is, as a shape cast) reads, at `(i, u)`, the vector's entry `i`. The layout library
  has the row form `[a] → [1, a]`; this is the column form, with the row-major arithmetic discharged the same way.
-/
import Idealize.ShloMosaic.Lib.Pipeline.Value
import Idealize.ShloMosaic.Lib.ValueIdx

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Idealize.ShloMosaic.ValueIdx
-- ==== Proof.LibColumnLayout.lean ====
/-
  Layout operations read at an index given by coordinates, for the shapes a kernel meets when it works on a square
  tile one column at a time and stores the tile into a stack of tiles:

  * a column `[a, 1]` broadcast over `[a, b]` reads, at `(p, c)`, the column's entry `p`;
  * an `[a, b]` array cast to `[1, 1, a, b]` reads, at `(u, v, i, j)`, the operand at `(i, j)`;
  * a rank-4 array whose axes are permuted by `[0, 2, 3, 1]` (a channel axis moved from second to last) reads, at
    `(m, i, j, c)`, the operand at `(m, c, i, j)`.

  Each is the general lemma of the layout library with the coordinate arithmetic discharged.
-/
import Idealize.ShloMosaic.Lib.Pipeline.Value
import Idealize.ShloMosaic.Lib.ValueIdx

namespace Idealize.ShloMosaic.ValueIdx

open Idealize.ShloMosaic

variable {α : Type}

/-- An `[a, 1]` column broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[1, 1, a, b]` reads, at `(u, v, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-- A rank-4 array with its second axis moved last (permutation `[0, 2, 3, 1]`) reads, at `(m, i, j, c)`, the
    operand at `(m, c, i, j)`. -/
theorem transpose_ix4_0231_apply {n c a b : ℕ} (x : (⟨4, ![n, c, a, b]⟩ : Shape).Idx → α)
    (h : (⟨4, ![n, c, a, b]⟩ : Shape).Transposes [0, 2, 3, 1] ⟨4, ![n, a, b, c]⟩)
    (m : Fin n) (i : Fin a) (j : Fin b) (k : Fin c) :
    transpose ⟨4, ![n, a, b, c]⟩ [0, 2, 3, 1] x h (ix4 m i j k) = x (ix4 m k i j) :=
  transpose_apply _ x h _ _ fun d => match d with
    | ⟨0, _⟩ => rfl | ⟨1, _⟩ => rfl | ⟨2, _⟩ => rfl | ⟨3, _⟩ => rfl

end Idealize.ShloMosaic.ValueIdx
-- ==== Proof.LibIndicator.lean ====
/-
  One-bit conditions and their 0/1 indicators on the extended reals.

  A comparison yields a one-bit word that is 1 exactly when the relation holds; exclusive-or with 1 negates it and
  bitwise-and conjoins two of them. Widened to 32 bits and converted as a signed integer, such a word is the extended
  real 1 or 0. A finite sum of such indicators is the number of indices at which the condition holds, and their
  maximum folded from the bottom element is positive exactly when the condition holds somewhere.
-/
import Idealize.ShloMosaic.PureOps.Ideal
import Idealize.ShloMosaic.Lib.ValueIdx
import Mathlib.Algebra.BigOperators.Ring.Finset

namespace Idealize.ShloMosaic.Indicator

open Idealize.ShloMosaic

/-- The word of a Boolean is 1 exactly when the Boolean is true. -/
theorem ofBool_eq_one_iff (b : Bool) : BitVec.ofBool b = 1#1 ↔ b = true := by cases b <;> decide

/-- `x > y` as a one-bit word is 1 exactly when `y < x`. -/
theorem cmp_ogt_eq_one_iff (x y : EReal) : Ideal.cmp .ogt x y = 1#1 ↔ y < x := by
  unfold Ideal.cmp; rw [ofBool_eq_one_iff]; exact decide_eq_true_iff

/-- `x < y` as a one-bit word is 1 exactly when `x < y`. -/
theorem cmp_olt_eq_one_iff (x y : EReal) : Ideal.cmp .olt x y = 1#1 ↔ x < y := by
  unfold Ideal.cmp; rw [ofBool_eq_one_iff]; exact decide_eq_true_iff

/-- Equality of two words as a one-bit word is 1 exactly when they are equal. -/
theorem cmpi_eq_eq_one_iff {w : ℕ} (x y : BitVec w) : IntOp.cmpi .eq x y = 1#1 ↔ x = y := by
  unfold IntOp.cmpi; rw [ofBool_eq_one_iff]; exact beq_iff_eq

/-- Exclusive-or with 1 negates a one-bit condition. -/
theorem xori_one_eq_one_iff (c : BitVec 1) : IntOp.xori c 1#1 = 1#1 ↔ ¬ c = 1#1 := by
  rcases BitVec.eq_zero_or_eq_one c with h | h <;> subst h <;> decide

/-- Bitwise-and conjoins two one-bit conditions. -/
theorem andi_eq_one_iff (c d : BitVec 1) : IntOp.andi c d = 1#1 ↔ c = 1#1 ∧ d = 1#1 := by
  rcases BitVec.eq_zero_or_eq_one c with h | h <;> rcases BitVec.eq_zero_or_eq_one d with h' | h' <;>
    subst h <;> subst h' <;> decide

/-- A select on a one-bit word is the conditional on the word being 1. -/
theorem select_eq_ite {α : Type} (c : BitVec 1) (a b : α) : Scalar.select c a b = if c = 1#1 then a else b := rfl

/-- A one-bit word widened to 32 bits and converted as a signed integer is 1 where the bit is set, 0 elsewhere. -/
theorem sitofp_setWidth_bit (c : BitVec 1) :
    FloatOps.sitofp (F := Ideal) .f32 (c.setWidth 32) = if c = 1#1 then 1 else 0 := by
  show ((((c.setWidth 32).toInt : ℤ) : ℝ) : EReal) = _
  rcases BitVec.eq_zero_or_eq_one c with h | h
  · subst h
    have e : ((0#1 : BitVec 1).setWidth 32).toInt = 0 := by decide
    rw [e, if_neg (by decide)]; simp
  · subst h
    have e : ((1#1 : BitVec 1).setWidth 32).toInt = 1 := by decide
    rw [e, if_pos rfl]; simp

/-- A finite sum of 0/1 indicators on the extended reals is the number of indices where the condition holds. -/
theorem sum_indicator_eq_card {ι : Type*} [Fintype ι] (P : ι → Prop) [DecidablePred P] :
    (∑ i, (if P i then (1 : EReal) else 0)) = ((Finset.univ.filter P).card : EReal) :=
  Finset.sum_boole P Finset.univ

/-- The maximum of 0/1 indicators folded from the bottom element is positive exactly when the condition holds at some
    index. -/
theorem zero_lt_fold_max_indicator {ι : Type*} [Fintype ι] (P : ι → Prop) [DecidablePred P] :
    0 < (Finset.univ : Finset ι).fold max (⊥ : EReal) (fun i => if P i then (1 : EReal) else 0) ↔ ∃ i, P i := by
  rw [Finset.lt_fold_max]
  constructor
  · rintro (h | ⟨i, _, hi⟩)
    · exact absurd h (not_lt.mpr bot_le)
    · by_cases hp : P i
      · exact ⟨i, hp⟩
      · rw [if_neg hp] at hi; exact absurd hi (lt_irrefl _)
  · rintro ⟨i, hp⟩
    exact Or.inr ⟨i, Finset.mem_univ i, by rw [if_pos hp]; exact zero_lt_one⟩

/-- Comparisons of a natural number's cast with 1 and with another cast, on the extended reals. -/
theorem one_lt_natCast_iff (n : ℕ) : (1 : EReal) < (n : EReal) ↔ 1 < n := by
  rw [← Nat.cast_one (R := EReal)]; exact EReal.natCast_lt_iff

theorem zero_lt_natCast_iff (n : ℕ) : (0 : EReal) < (n : EReal) ↔ 0 < n := by
  rw [← Nat.cast_zero (R := EReal)]; exact EReal.natCast_lt_iff

end Idealize.ShloMosaic.Indicator
-- ==== Proof.KIPayload.lean ====
/-
  What the two kernel bodies store, read at one entry on the extended reals.

  The row-dot body stores, at row p of its [2048, 1] block, the sum over the 1024 lanes k of x0(p,k)·x1(p,k): a lane
  sum accumulated from zero, viewed as a column. The diagonal body's first branch stores, at (a, b) of its 2048 x 2048
  block, the staged column's entry a where a = b (the row and column counters are compared as 32-bit words, which
  agree with the numbers below 2^32) and zero elsewhere; its second branch stores zero everywhere.
-/
import proofs.«153484_j25091198943263_1_alg».proof.Proof.Gen.KernelIdeal.Skeleton
import proofs.«153484_j25091198943263_1_alg».proof.Proof.LibRowReduce
import proofs.«153484_j25091198943263_1_alg».proof.Proof.LibVectorAsColumn
import proofs.«153484_j25091198943263_1_alg».proof.Proof.LibColumnLayout
import proofs.«153484_j25091198943263_1_alg».proof.Proof.LibIndicator
import Idealize.ShloMosaic.Lib.Pipeline.Value
import Idealize.ShloMosaic.Lib.ValueIdx
import Idealize.ShloMosaic.PureOps.Ideal.Laws

noncomputable section

namespace Cert.KernelIdeal.HandValue

open Idealize.ShloMosaic Idealize.ShloMosaic.ValueIdx
open Cert.KernelIdeal Cert.KernelIdeal.Gen

/-- Row p of the row-dot body's store: Σ_k x0(p,k)·x1(p,k). -/
theorem rowSums_pay_apply (x0 x1 : Vec Ideal S2048x1024 .f32) (p : Fin 2048) (u : Fin 1) :
    k0_pay1 (F := Ideal) x0 x1 (ix2 p u) = ∑ k : Fin 1024, x0 (ix2 p k) * x1 (ix2 p k) := by
  unfold k0_pay1
  refine (shapeCast_a_a1_apply _ _ p u).trans ?_
  refine (RowReduce.multiReduction_add_row (mulf x0 x1) _ _ _ _ p).trans ?_
  rfl

/-- Two counters below 2^32 are equal as 32-bit words exactly when they are equal. -/
theorem ofNat32_eq_iff {a b : ℕ} (ha : a < 2048) (hb : b < 2048) : BitVec.ofNat 32 a = BitVec.ofNat 32 b ↔ a = b := by
  constructor
  · intro h
    have := congrArg BitVec.toNat h
    rw [BitVec.toNat_ofNat, BitVec.toNat_ofNat, Nat.mod_eq_of_lt (by omega), Nat.mod_eq_of_lt (by omega)] at this
    exact this
  · intro h; rw [h]

/-- Entry (a, b) of the first branch's store: the column's entry a on the block's diagonal, zero off it. -/
theorem diag_pay_apply (x0 : Vec Ideal S2048x1 .f32) (a b : Fin 2048) :
    k1_pay1 (F := Ideal) x0 (ix2 a b) = if a.val = b.val then x0 (ix2 a (0 : Fin 1)) else 0 := by
  unfold k1_pay1
  simp only [select_apply, Indicator.select_eq_ite]
  have hc : (cmpi .eq (iota .tc S2048x2048 32 [0] Facts₀.iota_S2048x2048_d0_w32) (iota .tc S2048x2048 32 [1] Facts₀.iota_S2048x2048_d1_w32) (ix2 a b) = 1#1) ↔ a.val = b.val := by
    show IntOp.cmpi .eq (iota .tc S2048x2048 32 [0] Facts₀.iota_S2048x2048_d0_w32 (ix2 a b)) (iota .tc S2048x2048 32 [1] Facts₀.iota_S2048x2048_d1_w32 (ix2 a b)) = 1#1 ↔ _
    rw [Indicator.cmpi_eq_eq_one_iff, iota_single_apply, iota_single_apply]
    exact ofNat32_eq_iff a.isLt b.isLt
  by_cases h : a.val = b.val
  · rw [if_pos (hc.mpr h), if_pos h, shapeCast_self, shapeCast_self]
    exact broadcastTo_a1_ab_apply x0 _ a b
  · rw [if_neg (fun h' => h (hc.mp h')), if_neg h, shapeCast_self]
    refine (broadcastTo_a1_ab_apply _ _ a b).trans ?_
    show Ideal.ofBits .f32 0x00000000#32 = 0
    exact Ideal.ofBits_zero_f32

/-- Every entry of the second branch's store is zero. -/
theorem zero_pay_apply (y : S2048x2048.Idx) : k1_pay2 (F := Ideal) y = 0 := by
  unfold k1_pay2
  show Ideal.ofBits .f32 0x00000000#32 = 0
  exact Ideal.ofBits_zero_f32

end Cert.KernelIdeal.HandValue

end
-- ==== Proof.KIValue0.lean ====
/-
  The first region's result array as one function of the two arguments, on the extended reals.

  The [8192, 1] array the region writes ends holding, at row i, the inner product Σ_k a0(i,k)·a1(i,k) of the two
  arguments' rows i. Point t writes back the block of rows 2048·t … 2048·t+2047, and what it writes is that function
  read through the block: row p of the body's store is the lane sum over the staged blocks' row p, which are the
  arguments' rows 2048·t + p (the three windows move together along the rows, and the lanes are never split). The
  four blocks tile the array, so the whole array is that function.
-/
import proofs.«153484_j25091198943263_1_alg».proof.Proof.KIRegion0
import proofs.«153484_j25091198943263_1_alg».proof.Proof.KIPayload
import Idealize.ShloMosaic.Lib.Pipeline.Value

set_option maxRecDepth 16384

noncomputable section

namespace Cert.KernelIdeal.HandValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

open Idealize.ShloMosaic.ValueIdx Cert.KernelIdeal.Hand

variable (V : (c : Dev nD) → (b : Ref sig .tc) → Buf (Elt Ideal) ((c : Thread nD τ).loc b))

theorem offsets_zero : (![0, 0] : Fin 2 → Nat) = fun _ => 0 := funext fun a => by fin_cases a <;> rfl

/-- The row dots of two [8192, 1024] arrays, as an [8192, 1] column. -/
def rowDotCol (a0 a1 : S8192x1024.Idx → EReal) : S8192x1.Idx → EReal :=
  fun i => ∑ k : Fin 1024, a0 (ix2 (⟨(i 0).val, (i 0).isLt⟩ : Fin 8192) k) * a1 (ix2 (⟨(i 0).val, (i 0).isLt⟩ : Fin 8192) k)

/-- The body's store at an entry of its block, by the entry's row. -/
theorem rowSums_block_apply (x0 x1 : Vec Ideal S2048x1024 .f32) (y : S2048x1.Idx) :
    k0_pay1 (F := Ideal) x0 x1 y
      = ∑ k : Fin 1024, x0 (ix2 (⟨(y 0).val, (y 0).isLt⟩ : Fin 2048) k) * x1 (ix2 (⟨(y 0).val, (y 0).isLt⟩ : Fin 2048) k) := by
  obtain ⟨p, u, rfl⟩ : ∃ (p : Fin 2048) (u : Fin 1), y = ix2 p u := ⟨y 0, y 1, eq_ix2 y⟩
  exact rowSums_pay_apply x0 x1 p u

/-- The printed index maps, decided over the grid: the three windows move together along the rows and stay at the
    first block along the other axis. -/
theorem idx_facts0 : ∀ t : Fin cfg0.N, win0_0.index t (0 : Fin 2) = win0_2.index t (0 : Fin 2) ∧ win0_0.index t (1 : Fin 2) = 0
    ∧ win0_1.index t (0 : Fin 2) = win0_2.index t (0 : Fin 2) ∧ win0_1.index t (1 : Fin 2) = 0
    ∧ win0_2.index t (1 : Fin 2) = 0 ∧ win0_2.index t (0 : Fin 2) ≤ 3 :=
  (by decide +kernel : ∀ t : Fin grid0.N, _)

/-- Every block of rows is some point's. -/
theorem idx_onto0 : ∀ q0 : Fin 4, ∃ t : Fin cfg0.N, win0_2.index t = ![q0.val, 0] :=
  (by decide +kernel : ∀ q0 : Fin 4, ∃ t : Fin grid0.N, win0_2.index t = ![q0.val, 0])

/-- What point t writes back is block t of the row dots of the arguments as the region finds them. -/
theorem flushed0_eq (c : Dev nD) (t : Fin cfg0.N) :
    (dat0 V c).flushed 2 t = ((cfg0.win 2).blk t).view.read (Elt Ideal) (rowDotCol (V c main_arg0) (V c main_arg1)) := by
  show (cfg0.win 2).cut (grid0.coords t) ((dat0 V c).after 2 t) = _
  rw [after0_2]
  unfold rowSums0
  rw [View.canon_unit_zero offsets_zero]
  simp only [View.ld_unit_zero (S := S2048x1024) offsets_zero]
  obtain ⟨e0, e1, e2, e3, e4, e5⟩ := idx_facts0 t
  funext j
  show k0_pay1 (F := Ideal) (iblk0 V c 0 t) (iblk0 V c 1 t) j = rowDotCol (V c main_arg0) (V c main_arg1) (((cfg0.win 2).blk t).view.emb j)
  refine (rowSums_block_apply _ _ j).trans ?_
  unfold rowDotCol
  refine Finset.sum_congr rfl fun k _ => ?_
  have hj : (j 0).val < 2048 := (j 0).isLt
  have hE : ((((cfg0.win 2).blk t).view.emb j) 0).val = win0_2.index t (0 : Fin 2) * 2048 + 1 * (j 0).val := rfl
  have h0 : ((cfg0.win 0).blk t).view.emb (ix2 (⟨(j 0).val, (j 0).isLt⟩ : Fin 2048) k)
      = ix2 (⟨((((cfg0.win 2).blk t).view.emb j) 0).val, ((((cfg0.win 2).blk t).view.emb j) 0).isLt⟩ : Fin 8192) k := by
    funext a; apply Fin.ext
    match a with
    | ⟨0, _⟩ => show win0_0.index t (0 : Fin 2) * 2048 + 1 * (j 0).val = ((((cfg0.win 2).blk t).view.emb j) 0).val; rw [hE]; omega
    | ⟨1, _⟩ => show win0_0.index t (1 : Fin 2) * 1024 + 1 * k.val = k.val; omega
  have h1 : ((cfg0.win 1).blk t).view.emb (ix2 (⟨(j 0).val, (j 0).isLt⟩ : Fin 2048) k)
      = ix2 (⟨((((cfg0.win 2).blk t).view.emb j) 0).val, ((((cfg0.win 2).blk t).view.emb j) 0).isLt⟩ : Fin 8192) k := by
    funext a; apply Fin.ext
    match a with
    | ⟨0, _⟩ => show win0_1.index t (0 : Fin 2) * 2048 + 1 * (j 0).val = ((((cfg0.win 2).blk t).view.emb j) 0).val; rw [hE]; omega
    | ⟨1, _⟩ => show win0_1.index t (1 : Fin 2) * 1024 + 1 * k.val = k.val; omega
  exact congrArg₂ (fun a b : EReal => a * b) (congrArg (V c main_arg0) h0) (congrArg (V c main_arg1) h1)

/-- An index of the array is in point t's block iff each coordinate is in the block's range on its axis. -/
theorem mem_blk0 (t : Fin cfg0.N) (i : S8192x1.Idx) :
    i ∈ ((cfg0.win 2).blk t).view.set ↔ ∀ a : Fin 2, win0_2.index t a * S2048x1.size a ≤ (i a).val ∧ (i a).val < win0_2.index t a * S2048x1.size a + S2048x1.size a := by
  show i ∈ ((View.whole main_v0).slice (win0_2.rect t)).set ↔ _
  rw [View.set_slice_whole, Rect.mem_set_unit]
  exact Iff.rfl

/-- Every row of the array is in some point's block: row r in that of point r / 2048. -/
theorem cover0 (i : S8192x1.Idx) : ∃ t : Fin cfg0.N, (cfg0.win 2).flush t = true ∧ i ∈ ((cfg0.win 2).blk t).view.set := by
  have hi0 : (i 0).val < 8192 := (i 0).isLt
  have hi1 : (i 1).val < 1 := (i 1).isLt
  obtain ⟨t, ht⟩ := idx_onto0 ⟨(i 0).val / 2048, by omega⟩
  have q0 : win0_2.index t (0 : Fin 2) = (i 0).val / 2048 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 1 ≤ (i 1).val ∧ (i 1).val < win0_2.index t (1 : Fin 2) * 1 + 1; omega

/-- The array after the region: the row dots of the two arguments as the region finds them. -/
theorem final0 (c : Dev nD) : (dat0 V c).arrAt 2 cfg0.N = rowDotCol (V c main_arg0) (V c main_arg1) :=
  (dat0 V c).arrAt_eq_of_cover 2 _ (fun t _ => flushed0_eq V c t) cover0

end Cert.KernelIdeal.HandValue

end
-- ==== Proof.KIValue1.lean ====
/-
  The second region's result array as one function of the column it reads, on the extended reals.

  The [8192, 8192] array the region writes ends holding, at (r, s), the column's entry r where r = s and zero
  elsewhere. Point (i, j) writes back block (i, j) of 2048 x 2048 entries, whose entry (a, b) sits at
  (2048·i + a, 2048·j + b). Where i = j the body stores the staged column's entry a on the block's diagonal a = b and
  zero off it; the staged column is the column's rows 2048·i …, and 2048·i + a = 2048·i + b exactly when a = b. Where
  i ≠ j it stores zero, and 2048·i + a ≠ 2048·j + b for any a, b below 2048. The sixteen blocks tile the array.
-/
import proofs.«153484_j25091198943263_1_alg».proof.Proof.KIRegion1
import proofs.«153484_j25091198943263_1_alg».proof.Proof.KIPayload
import Idealize.ShloMosaic.Lib.Pipeline.Value

set_option maxRecDepth 16384

noncomputable section

namespace Cert.KernelIdeal.HandValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

open Idealize.ShloMosaic.ValueIdx Cert.KernelIdeal.Hand

variable (V : (c : Dev nD) → (b : Ref sig .tc) → Buf (Elt Ideal) ((c : Thread nD τ).loc b))

theorem offsets_zero1 : (![0, 0] : Fin 2 → Nat) = fun _ => 0 := funext fun a => by fin_cases a <;> rfl

/-- The [8192, 8192] matrix with an [8192, 1] column on its diagonal and zero elsewhere. -/
def diagOfCol (v : S8192x1.Idx → EReal) : S8192x8192.Idx → EReal :=
  fun i => if (i 0).val = (i 1).val then v (ix2 (⟨(i 0).val, (i 0).isLt⟩ : Fin 8192) (0 : Fin 1)) else 0

/-- What the body leaves in its block at grid coordinates i, entry by entry. -/
theorem outBlock_apply (i : grid1.Coords) (x0 : Vec Ideal S2048x1 .f32) (y : S2048x2048.Idx) :
    outBlock1 (F := Ideal) i x0 y
      = if k1_cond1 i = 1#1 then (if (y 0).val = (y 1).val then x0 (ix2 (⟨(y 0).val, (y 0).isLt⟩ : Fin 2048) (0 : Fin 1)) else 0) else 0 := by
  unfold outBlock1
  by_cases hc : k1_cond1 i = 1#1
  · rw [if_pos hc, if_pos hc]
    unfold diagBlock1
    rw [View.canon_unit_zero offsets_zero1, View.ld_unit_zero (S := S2048x1) offsets_zero1]
    obtain ⟨a, b, rfl⟩ : ∃ (a : Fin 2048) (b : Fin 2048), y = ix2 a b := ⟨y 0, y 1, eq_ix2 y⟩
    exact diag_pay_apply x0 a b
  · rw [if_neg hc, if_neg hc]
    unfold zeroBlock1
    rw [View.canon_unit_zero offsets_zero1]
    exact zero_pay_apply y

/-- The printed index maps and the first branch's condition, decided over the grid: the input window follows the
    output's row block and stays at column block 0; the block coordinates stay below 4; and the first branch is taken
    exactly where the output's two block coordinates agree. -/
theorem idx_facts1 : ∀ t : Fin cfg1.N, win1_0.index t (0 : Fin 2) = win1_1.index t (0 : Fin 2) ∧ win1_0.index t (1 : Fin 2) = 0
    ∧ win1_1.index t (0 : Fin 2) ≤ 3 ∧ win1_1.index t (1 : Fin 2) ≤ 3
    ∧ (k1_cond1 (grid1.coords t) = 1#1 ↔ win1_1.index t (0 : Fin 2) = win1_1.index t (1 : Fin 2)) :=
  (by decide +kernel : ∀ t : Fin grid1.N, _)

/-- Every block is some point's. -/
theorem idx_onto1 : ∀ (q0 q1 : Fin 4), ∃ t : Fin cfg1.N, win1_1.index t = ![q0.val, q1.val] :=
  (by decide +kernel : ∀ (q0 q1 : Fin 4), ∃ t : Fin grid1.N, win1_1.index t = ![q0.val, q1.val])

/-- What point t writes back is block t of the diagonal matrix of the column as the region finds it. -/
theorem flushed1_eq (c : Dev nD) (t : Fin cfg1.N) :
    (dat1 V c).flushed 1 t = ((cfg1.win 1).blk t).view.read (Elt Ideal) (diagOfCol (V c main_v12)) := by
  show (cfg1.win 1).cut (grid1.coords t) ((dat1 V c).after 1 t) = _
  rw [after1_1]
  obtain ⟨e0, e1, e2, e3, e4⟩ := idx_facts1 t
  funext j
  show outBlock1 (F := Ideal) (grid1.coords t) (iblk1 V c 0 t) j = diagOfCol (V c main_v12) (((cfg1.win 1).blk t).view.emb j)
  refine (outBlock_apply _ _ j).trans ?_
  unfold diagOfCol
  have hj0 : (j 0).val < 2048 := (j 0).isLt
  have hj1 : (j 1).val < 2048 := (j 1).isLt
  have hE0 : ((((cfg1.win 1).blk t).view.emb j) 0).val = win1_1.index t (0 : Fin 2) * 2048 + 1 * (j 0).val := rfl
  have hE1 : ((((cfg1.win 1).blk t).view.emb j) 1).val = win1_1.index t (1 : Fin 2) * 2048 + 1 * (j 1).val := rfl
  by_cases hc : k1_cond1 (grid1.coords t) = 1#1
  · rw [if_pos hc]
    have hq := e4.mp hc
    by_cases hab : (j 0).val = (j 1).val
    · rw [if_pos hab, if_pos (by rw [hE0, hE1]; omega)]
      have h0 : ((cfg1.win 0).blk t).view.emb (ix2 (⟨(j 0).val, (j 0).isLt⟩ : Fin 2048) (0 : Fin 1))
          = ix2 (⟨((((cfg1.win 1).blk t).view.emb j) 0).val, ((((cfg1.win 1).blk t).view.emb j) 0).isLt⟩ : Fin 8192) (0 : Fin 1) := by
        funext a; apply Fin.ext
        match a with
        | ⟨0, _⟩ => show win1_0.index t (0 : Fin 2) * 2048 + 1 * (j 0).val = ((((cfg1.win 1).blk t).view.emb j) 0).val; rw [hE0]; omega
        | ⟨1, _⟩ => show win1_0.index t (1 : Fin 2) * 1 + 1 * 0 = 0; omega
      show V c main_v12 (((cfg1.win 0).blk t).view.emb (ix2 (⟨(j 0).val, (j 0).isLt⟩ : Fin 2048) (0 : Fin 1))) = _
      rw [h0]
    · rw [if_neg hab, if_neg (by rw [hE0, hE1]; omega)]
  · rw [if_neg hc]
    have hq : win1_1.index t (0 : Fin 2) ≠ win1_1.index t (1 : Fin 2) := fun h => hc (e4.mpr h)
    rw [if_neg (by rw [hE0, hE1]; omega)]

/-- An index of the array is in point t's block iff each coordinate is in the block's range on its axis. -/
theorem mem_blk1 (t : Fin cfg1.N) (i : S8192x8192.Idx) :
    i ∈ ((cfg1.win 1).blk t).view.set ↔ ∀ a : Fin 2, win1_1.index t a * S2048x2048.size a ≤ (i a).val ∧ (i a).val < win1_1.index t a * S2048x2048.size a + S2048x2048.size a := by
  show i ∈ ((View.whole main_v13).slice (win1_1.rect t)).set ↔ _
  rw [View.set_slice_whole, Rect.mem_set_unit]
  exact Iff.rfl

/-- Every entry of the array is in some point's block: (r, s) in that of block (r / 2048, s / 2048). -/
theorem cover1 (i : S8192x8192.Idx) : ∃ t : Fin cfg1.N, (cfg1.win 1).flush t = true ∧ i ∈ ((cfg1.win 1).blk t).view.set := by
  have hi0 : (i 0).val < 8192 := (i 0).isLt
  have hi1 : (i 1).val < 8192 := (i 1).isLt
  obtain ⟨t, ht⟩ := idx_onto1 ⟨(i 0).val / 2048, by omega⟩ ⟨(i 1).val / 2048, by omega⟩
  have q0 : win1_1.index t (0 : Fin 2) = (i 0).val / 2048 := congrFun ht 0
  have q1 : win1_1.index t (1 : Fin 2) = (i 1).val / 2048 := congrFun ht 1
  refine ⟨t, flush1_1 t, ?_⟩
  rw [mem_blk1]
  intro a
  match a with
  | ⟨0, _⟩ => show win1_1.index t (0 : Fin 2) * 2048 ≤ (i 0).val ∧ (i 0).val < win1_1.index t (0 : Fin 2) * 2048 + 2048; omega
  | ⟨1, _⟩ => show win1_1.index t (1 : Fin 2) * 2048 ≤ (i 1).val ∧ (i 1).val < win1_1.index t (1 : Fin 2) * 2048 + 2048; omega

/-- The array after the region: the diagonal matrix of the column as the region finds it. -/
theorem final1 (c : Dev nD) : (dat1 V c).arrAt 1 cfg1.N = diagOfCol (V c main_v12) :=
  (dat1 V c).arrAt_eq_of_cover 1 _ (fun t _ => flushed1_eq V c t) cover1

end Cert.KernelIdeal.HandValue

end
-- ==== Proof.Spec.lean ====
/-
  The one function both programs compute, stated over the two argument arrays with no program in sight.

  For q, k : [8192, 1024] the row dots are r(i) = Σ_j q(i,j)·k(i,j); the softmax of the vector r is the chain
  e = exp(r − max(−∞, max_i r(i))), e / Σ_i e(i), kept here as the very operations both programs apply (so that no
  proof ever has to open it: both sides apply the same chain to equal vectors); and the result is the [8192, 8192]
  matrix with that softmax on its diagonal and zero elsewhere.
-/
import Idealize.ShloMosaic.PureOps
import Idealize.ShloMosaic.PureOps.Ideal
import Idealize.ShloMosaic.Lib.ValueIdx

noncomputable section

namespace Cert.DiagSoftmax

open Idealize.ShloMosaic Idealize.ShloMosaic.ValueIdx

abbrev SIn : Shape := ⟨2, ![8192, 1024]⟩
abbrev SVec : Shape := ⟨1, ![8192]⟩
abbrev SSc : Shape := ⟨0, ![]⟩
abbrev SOne : Shape := ⟨1, ![1]⟩
abbrev SOut : Shape := ⟨2, ![8192, 8192]⟩

/-- Row i's inner product Σ_j q(i,j)·k(i,j), as a vector over the rows. -/
def rowDot (q k : FVec Ideal SIn .f32) : FVec Ideal SVec .f32 :=
  fun i => ∑ j : Fin 1024, q (ix2 (⟨(i 0).val, (i 0).isLt⟩ : Fin 8192) j) * k (ix2 (⟨(i 0).val, (i 0).isLt⟩ : Fin 8192) j)

/-- exp(x − max(−∞, max x)), entry by entry: the numerators of the softmax. -/
def expShift (hred : SVec.ReducesTo [0] SSc) (hpos : 0 < SSc.numel) (hb0 : SSc.BroadcastsInDim SOne (![] : Fin 0 → Fin SOne.rank))
    (hb1 : SOne.BroadcastsInDim SVec (![0] : Fin 1 → Fin SVec.rank)) (x : FVec Ideal SVec .f32) : FVec Ideal SVec .f32 :=
  Host.exp (F := Ideal) (subf x (broadcastInDim SVec ![0] hb1 (broadcastInDim SOne ![] hb0
    (maximumf (constant (F := Ideal) SSc .f32 0xFF800000#32)
      (Host.reduce (FloatOps.maximumf : Ideal .f32 → Ideal .f32 → Ideal .f32) x (constant (F := Ideal) SSc .f32 0xFF800000#32) hred hpos)))))

/-- The softmax of a vector: the numerators over their sum (accumulated from zero). -/
def softmax (hred : SVec.ReducesTo [0] SSc) (hpos : 0 < SSc.numel) (hb0 : SSc.BroadcastsInDim SOne (![] : Fin 0 → Fin SOne.rank))
    (hb1 : SOne.BroadcastsInDim SVec (![0] : Fin 1 → Fin SVec.rank)) (x : FVec Ideal SVec .f32) : FVec Ideal SVec .f32 :=
  Host.divf (F := Ideal) (expShift hred hpos hb0 hb1 x) (broadcastInDim SVec ![0] hb1 (broadcastInDim SOne ![] hb0
    (Host.reduceAdd (F := Ideal) (expShift hred hpos hb0 hb1 x) (constant (F := Ideal) SSc .f32 0x00000000#32) hred hpos)))

/-- The matrix with the vector on its diagonal and zero elsewhere. -/
def diag (v : FVec Ideal SVec .f32) : FVec Ideal SOut .f32 :=
  fun y => if (y 0).val = (y 1).val then v (ix1 (⟨(y 0).val, (y 0).isLt⟩ : Fin 8192)) else 0

/-- diag(softmax(row dots of q and k)). -/
def result (hred : SVec.ReducesTo [0] SSc) (hpos : 0 < SSc.numel) (hb0 : SSc.BroadcastsInDim SOne (![] : Fin 0 → Fin SOne.rank))
    (hb1 : SOne.BroadcastsInDim SVec (![0] : Fin 1 → Fin SVec.rank)) (q k : FVec Ideal SIn .f32) : FVec Ideal SOut .f32 :=
  diag (softmax hred hpos hb0 hb1 (rowDot q k))

end Cert.DiagSoftmax

end
-- ==== Proof.LibColumnAsVector.lean ====
/-
  A one-column matrix viewed as a vector, read at an index given by coordinates: an `[a, 1]` array cast to `[a]`
  (what `m[:, 0]` or `m.reshape(a)` is, as a shape cast) reads, at `i`, the matrix's entry `(i, 0)`. The layout
  library has the row form `[1, a] → [a]`; this is the column form, with the row-major arithmetic discharged the same
  way. Any extent and any element type; imports only the library.
-/
import Idealize.ShloMosaic.Lib.Pipeline.Value
import Idealize.ShloMosaic.Lib.ValueIdx

namespace Idealize.ShloMosaic.ColumnAsVector

open Idealize.ShloMosaic Idealize.ShloMosaic.ValueIdx

variable {α : Type}

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ColumnAsVector
-- ==== Proof.KIValue.lean ====
/-
  The idealized kernel's result array is the specification's function of the two arguments.

  After the first region the [8192, 1] buffer holds the row dots of the arguments. The host stretch views that column
  as a vector, applies the softmax chain to it (the very operations of the specification, never opened here), and
  views the result as a column again. The second region leaves the [8192, 8192] result at the diagonal matrix of that
  column. A column viewed as a vector reads entry (i, 0) at i, and a vector viewed as a column reads entry i at (i, 0):
  so the result is the diagonal matrix of the softmax of the vector of row dots.
-/
import proofs.«153484_j25091198943263_1_alg».proof.Proof.KIRun
import proofs.«153484_j25091198943263_1_alg».proof.Proof.KIValue0
import proofs.«153484_j25091198943263_1_alg».proof.Proof.KIValue1
import proofs.«153484_j25091198943263_1_alg».proof.Proof.Spec
import proofs.«153484_j25091198943263_1_alg».proof.Proof.LibColumnAsVector
import proofs.«153484_j25091198943263_1_alg».proof.Proof.LibVectorAsColumn

set_option maxRecDepth 16384

noncomputable section

namespace Cert.KernelIdeal.HandValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

open Idealize.ShloMosaic.ValueIdx Cert.KernelIdeal.Hand

/-! ## Two layout facts, with no program in sight -/

/-- The diagonal matrix of a vector viewed as a column is the diagonal matrix of the vector. -/
theorem diagOfCol_column (v : FVec Ideal S8192 .f32) (h : S8192.ShapeCasts S8192x1) :
    diagOfCol (shapeCast S8192x1 v h) = Cert.DiagSoftmax.diag v := by
  funext i
  unfold diagOfCol Cert.DiagSoftmax.diag
  by_cases hc : (i 0).val = (i 1).val
  · rw [if_pos hc, if_pos hc]
    exact shapeCast_a_a1_apply v h _ _
  · rw [if_neg hc, if_neg hc]

/-- The column of row dots viewed as a vector is the vector of row dots. -/
theorem rowDotCol_vector (q k : FVec Ideal S8192x1024 .f32) (h : S8192x1.ShapeCasts S8192) :
    shapeCast S8192 (rowDotCol q k) h = Cert.DiagSoftmax.rowDot q k := by
  funext i
  obtain ⟨p, rfl⟩ : ∃ p : Fin 8192, i = ix1 p := ⟨i 0, eq_ix1 i⟩
  refine (ColumnAsVector.shapeCast_a1_a_apply _ h p).trans ?_
  rfl

/-! ## The run's boundaries, read -/

variable (m : (ℓ : Loc nD τ sig) → Buf (Elt Ideal) ℓ) (ρ : Dev nD → PrngReg)

/-- After the first region the column buffer holds the row dots of the arguments. -/
theorem rowDots_after_region0 (c : Dev nD) :
    (B1 m ρ c (Proc.devRef .tc main_v0) : S8192x1.Idx → EReal)
      = rowDotCol (m ((c : Thread nD τ).loc main_arg0)) (m ((c : Thread nD τ).loc main_arg1)) :=
  (B1_arr m ρ c 2).trans (final0 (C0 m ρ) c)

/-- The host stretch leaves, in the second region's input column, the softmax of the first region's column viewed as
    a vector, viewed as a column again. -/
theorem column_after_host (c : Dev nD) :
    (C2 m ρ c main_v12 : S8192x1.Idx → EReal)
      = shapeCast S8192x1 (Cert.DiagSoftmax.softmax Facts₀.reducesTo_S8192_S_d0 Facts₀.h_S_ Facts₀.bcast_S_S1 Facts₀.bcast_S1_S8192_0
          (shapeCast S8192 (B1 m ρ c (Proc.devRef .tc main_v0) : S8192x1.Idx → EReal) Facts₀.shapeCasts_S8192x1_S8192))
          Facts₀.shapeCasts_S8192_S8192x1 := by
  show StableHlo.after hostOps1 (B1 m ρ c) (Proc.devRef .tc main_v12) = _
  generalize B1 m ρ c = W
  after_results
  rfl

/-- THE VALUE: what the second region's write-backs leave of the result buffer is the specification's function of the
    two arguments. -/
theorem result_eq (c : Dev nD) :
    (dat1 (C2 m ρ) c).arrAt 1 cfg1.N
      = Cert.DiagSoftmax.result Facts₀.reducesTo_S8192_S_d0 Facts₀.h_S_ Facts₀.bcast_S_S1 Facts₀.bcast_S1_S8192_0
          (m ((c : Thread nD τ).loc main_arg0)) (m ((c : Thread nD τ).loc main_arg1)) := by
  refine (final1 (C2 m ρ) c).trans ?_
  rw [column_after_host m ρ c, rowDots_after_region0 m ρ c, rowDotCol_vector, diagOfCol_column]
  rfl

end Cert.KernelIdeal.HandValue

end
-- ==== Proof.RefRun.lean ====
/-
  The reference program's run, read back: @main of the reference — the elementwise product, the row sums, the softmax
  chain over the vector of row sums, and the two module-local functions that place the vector on the diagonal of a
  square matrix (a pad by nothing, the two index grids compared, the vector broadcast along rows, the select against
  zero) — is a straight line of twenty-nine host operations once the two calls are replaced by their bodies. Every weakly
  fair execution terminates with the result buffer at the composed term of those operations applied to the two
  arguments' launch contents, and the arguments unchanged.
-/
import proofs.«153484_j25091198943263_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The composed term, in three named pieces -/

/-- The row sums of the elementwise product, accumulated from zero. -/
def rowSums (a0 a1 : FVec F S8192x1024 .f32) : FVec F S8192 .f32 :=
  Host.reduceAdd (mulf a0 a1) (constant S_ .f32 0x00000000#32) Facts₀.reducesTo_S8192x1024_S8192_d1 Facts₀.h_S_

/-- The numerators of the softmax chain: exp(x − max(−∞, max x)). -/
def numer (x : FVec F S8192 .f32) : FVec F S8192 .f32 :=
  Host.exp (subf x (broadcastInDim S8192 ![0] Facts₀.bcast_S1_S8192_0 (broadcastInDim S1 ![] Facts₀.bcast_S_S1
    (maximumf (constant S_ .f32 0xFF800000#32)
      (Host.reduce FloatOps.maximumf x (constant S_ .f32 0xFF800000#32) Facts₀.reducesTo_S8192_S_d0 Facts₀.h_S_)))))

/-- The softmax chain: the numerators over their sum. -/
def soft (x : FVec F S8192 .f32) : FVec F S8192 .f32 :=
  Host.divf (numer x) (broadcastInDim S8192 ![0] Facts₀.bcast_S1_S8192_0 (broadcastInDim S1 ![] Facts₀.bcast_S_S1
    (Host.reduceAdd (numer x) (constant S_ .f32 0x00000000#32) Facts₀.reducesTo_S8192_S_d0 Facts₀.h_S_)))

/-- The two module-local functions applied to a vector: the select, on "row index plus zero equals column index", between
    the vector (padded by nothing) broadcast along rows and the zero matrix. -/
def onDiag (v : FVec F S8192 .f32) : FVec F S8192x8192 .f32 :=
  select
    (cmpi .eq (addi (iotaInDim S8192x8192 32 0) (broadcastInDim S8192x8192 ![] Facts₀.bcast_S_S8192x8192 (constantI S_ 32 0#32)))
      (iotaInDim S8192x8192 32 1))
    (broadcastInDim S8192x8192 ![0, 1] Facts₀.bcast_S8192x1_S8192x8192_0_1
      (broadcastInDim S8192x1 ![0] Facts₀.bcast_S8192_S8192x1_0
        (pad S8192 ![0] ![0] ![0] v (constant S_ .f32 0x00000000#32) Facts₀.pads_S8192_S8192_000 Facts₀.h_S_)))
    (broadcastInDim S8192x8192 ![] Facts₀.bcast_S_S8192x8192 (constant S_ .f32 0x00000000#32))

/-! ## The straight line -/

/-- @main's twenty-nine operations in order, the calls replaced by their bodies: sixteen of @main's own, ten of the
    diagonal function's over its call's buffers, three of the select function's over the nested call's. -/
abbrev ops : List (HloOp τ sig (Elt F)) :=
  [ binary main_arg0 main_arg1 main_v0 (mulf : (⟨S8192x1024, .f32⟩ : BufTy).Contents (Elt F) → (⟨S8192x1024, .f32⟩ : BufTy).Contents (Elt F) → (⟨S8192x1024, .f32⟩ : BufTy).Contents (Elt F)),
    nullary main_cst (constant S_ .f32 0x00000000#32),
    binary main_v0 main_cst main_v1 ((fun x v => Host.reduceAdd x v Facts₀.reducesTo_S8192x1024_S8192_d1 Facts₀.h_S_) : (⟨S8192x1024, .f32⟩ : BufTy).Contents (Elt F) → (⟨S_, .f32⟩ : BufTy).Contents (Elt F) → (⟨S8192, .f32⟩ : BufTy).Contents (Elt F)),
    nullary main_cst_0 (constant S_ .f32 0xFF800000#32),
    binary main_v1 main_cst_0 main_v2 ((fun x v => Host.reduce FloatOps.maximumf x v Facts₀.reducesTo_S8192_S_d0 Facts₀.h_S_) : (⟨S8192, .f32⟩ : BufTy).Contents (Elt F) → (⟨S_, .f32⟩ : BufTy).Contents (Elt F) → (⟨S_, .f32⟩ : BufTy).Contents (Elt F)),
    nullary main_cst_1 (constant S_ .f32 0xFF800000#32),
    binary main_cst_1 main_v2 main_v3 (maximumf : (⟨S_, .f32⟩ : BufTy).Contents (Elt F) → (⟨S_, .f32⟩ : BufTy).Contents (Elt F) → (⟨S_, .f32⟩ : BufTy).Contents (Elt F)),
    unary main_v3 main_v4 (broadcastInDim S1 ![] Facts₀.bcast_S_S1 : (⟨S_, .f32⟩ : BufTy).Contents (Elt F) → (⟨S1, .f32⟩ : BufTy).Contents (Elt F)),
    unary main_v4 main_v5 (broadcastInDim S8192 ![0] Facts₀.bcast_S1_S8192_0 : (⟨S1, .f32⟩ : BufTy).Contents (Elt F) → (⟨S8192, .f32⟩ : BufTy).Contents (Elt F)),
    binary main_v1 main_v5 main_v6 (subf : (⟨S8192, .f32⟩ : BufTy).Contents (Elt F) → (⟨S8192, .f32⟩ : BufTy).Contents (Elt F) → (⟨S8192, .f32⟩ : BufTy).Contents (Elt F)),
    unary main_v6 main_v7 (Host.exp : (⟨S8192, .f32⟩ : BufTy).Contents (Elt F) → (⟨S8192, .f32⟩ : BufTy).Contents (Elt F)),
    nullary main_cst_2 (constant S_ .f32 0x00000000#32),
    binary main_v7 main_cst_2 main_v8 ((fun x v => Host.reduceAdd x v Facts₀.reducesTo_S8192_S_d0 Facts₀.h_S_) : (⟨S8192, .f32⟩ : BufTy).Contents (Elt F) → (⟨S_, .f32⟩ : BufTy).Contents (Elt F) → (⟨S_, .f32⟩ : BufTy).Contents (Elt F)),
    unary main_v8 main_v9 (broadcastInDim S1 ![] Facts₀.bcast_S_S1 : (⟨S_, .f32⟩ : BufTy).Contents (Elt F) → (⟨S1, .f32⟩ : BufTy).Contents (Elt F)),
    unary main_v9 main_v10 (broadcastInDim S8192 ![0] Facts₀.bcast_S1_S8192_0 : (⟨S1, .f32⟩ : BufTy).Contents (Elt F) → (⟨S8192, .f32⟩ : BufTy).Contents (Elt F)),
    binary main_v7 main_v10 main_v11 (Host.divf : (⟨S8192, .f32⟩ : BufTy).Contents (Elt F) → (⟨S8192, .f32⟩ : BufTy).Contents (Elt F) → (⟨S8192, .f32⟩ : BufTy).Contents (Elt F)),
    TRef.nullary main_call0.cst (constant S_ .f32 0x00000000#32),
    TRef.binary (.of main_v11) main_call0.cst main_call0.v0 (fun x v => pad S8192 ![0] ![0] ![0] x v Facts₀.pads_S8192_S8192_000 Facts₀.h_S_),
    TRef.nullary main_call0.v1 (iotaInDim S8192x8192 32 0),
    TRef.nullary main_call0.v2 (iotaInDim S8192x8192 32 1),
    TRef.nullary main_call0.c (constantI S_ 32 0#32),
    TRef.unary main_call0.c main_call0.v3 (broadcastInDim S8192x8192 ![] Facts₀.bcast_S_S8192x8192),
    TRef.binary main_call0.v1 main_call0.v3 main_call0.v4 addi,
    TRef.binary main_call0.v4 main_call0.v2 main_call0.v5 (cmpi .eq),
    TRef.unary main_call0.v0 main_call0.v6 (broadcastInDim S8192x1 ![0] Facts₀.bcast_S8192_S8192x1_0),
    TRef.nullary main_call0.cst_0 (constant S_ .f32 0x00000000#32),
    TRef.unary main_call0.v6 main_call0.call0.v0 (broadcastInDim S8192x8192 ![0, 1] Facts₀.bcast_S8192x1_S8192x8192_0_1),
    TRef.unary main_call0.cst_0 main_call0.call0.v1 (broadcastInDim S8192x8192 ![] Facts₀.bcast_S_S8192x8192),
    TRef.ternary main_call0.v5 main_call0.call0.v0 main_call0.call0.v1 main_call0.call0.v2 select ]

set_option maxRecDepth 1024 in
/-- @main is that straight line: the two functions' definitions unfolded at their calls, both sides are one chain of
    host steps once sequencing is reassociated. -/
theorem main_eq (c : Dev nD) : main (F := F) c = seq ops := by
  simp only [main, fn_diag.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., nullary_bufs_sub .., binary_bufs_sub .., nullary_bufs_sub .., binary_bufs_sub .., nullary_bufs_sub ..,
    binary_bufs_sub .., unary_bufs_sub .., unary_bufs_sub .., binary_bufs_sub .., unary_bufs_sub .., nullary_bufs_sub ..,
    binary_bufs_sub .., unary_bufs_sub .., unary_bufs_sub .., binary_bufs_sub ..,
    nullary_bufs_sub .., binary_bufs_sub .., nullary_bufs_sub .., nullary_bufs_sub .., nullary_bufs_sub .., unary_bufs_sub ..,
    binary_bufs_sub .., binary_bufs_sub .., unary_bufs_sub .., nullary_bufs_sub ..,
    unary_bufs_sub .., unary_bufs_sub .., ternary_bufs_sub ..⟩

/-- At the compiled mesh, for any float values, from any memory with zero counters: every weakly fair execution of @main
    terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

attribute [local irreducible] Host.reduce Host.reduceAdd pad in
/-- The fold at the result buffer is the composed term: the fold unrolled, each operation's result read at its own
    buffer and passed over at every other, and the typed references' transports the identity at literal references. -/
theorem out_eq (V : Valuation τ sig (Elt F)) :
    after ops V (main_v12 : DevRef τ sig)
      = onDiag (soft (rowSums (V (main_arg0 : DevRef τ sig)) (V (main_arg1 : DevRef τ sig)))) := by
  after_results_simp
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

/-- On the device, for any float values, from any memory with zero counters: every weakly fair execution of @main
    terminates with the result at the composed term of the two arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v12)
          = onDiag (soft (rowSums (m ((c.tc : Thread nD τ).loc main_arg0)) (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v12).trans (out_eq _), (h c main_arg0).trans (arg0_eq _),
      (h c main_arg1).trans (arg1_eq _)⟩)
    (run_main m ρ)

end Cert.ReferenceIdeal.RefRun

end
-- ==== Proof.RefValue.lean ====
/-
  The reference program's value: the composed term of its run is the specification's function of the two arguments.
  Three facts, one per named piece of the run's term. The row sums, accumulated from the zero word, are the row inner
  products: the host's sum over axis 1 read at a row is zero plus the sum over the columns of the product's entries,
  and the index it reads is the pair (row, column). The softmax chain is the specification's, operation for operation:
  nothing to prove. And the two module-local functions put the vector on the diagonal: at entry (a, b) the condition
  word compares a + 0 with b as 32-bit words, which for numbers below 8192 is the comparison of the numbers; on the
  diagonal the select reads the vector (padded by nothing, broadcast along the row) at a, elsewhere the zero word.
-/
import proofs.«153484_j25091198943263_1_alg».proof.Proof.Spec
import proofs.«153484_j25091198943263_1_alg».proof.Proof.RefRun
import Idealize.ShloMosaic.Lib.IdealHost
import Idealize.ShloMosaic.Lib.KernelVsHost
import Idealize.ShloMosaic.Lib.Pipeline.Value

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.RefRun
open scoped BigOperators

/-! ## The row sums are the row inner products -/

/-- The sum over axis 1 of a [8192, 1024] array lands in [8192]. -/
theorem reduces_rows : S8192x1024.Reduces [1] S8192 := by decide

/-- The index the sum reads over row `i` at column `j` is the pair (row, column). -/
theorem lift_rows (i : S8192.Idx) (j : Fin 1024) :
    reduces_rows.lift i j = ix2 (⟨(i 0).val, (i 0).isLt⟩ : Fin 8192) j := by
  funext d
  refine Fin.ext ?_
  match d with
  | ⟨0, _⟩ => rfl
  | ⟨1, _⟩ => rfl

theorem rowSums_eq (q k : FVec Ideal S8192x1024 .f32) :
    rowSums (F := Ideal) q k = Cert.DiagSoftmax.rowDot q k := by
  funext i
  unfold rowSums Cert.DiagSoftmax.rowDot
  rw [hostReduceAdd_apply, Ideal.hostReduceAdd_single Facts₀.reducesTo_S8192x1024_S8192_d1 reduces_rows]
  show Ideal.ofBits .f32 0x00000000#32 + _ = _
  rw [Ideal.ofBits_zero_f32, zero_add]
  refine Finset.sum_congr rfl fun j _ => ?_
  rw [lift_rows i j]
  rfl

/-! ## The softmax chain is the specification's -/

theorem soft_eq (x : FVec Ideal S8192 .f32) :
    soft (F := Ideal) x
      = Cert.DiagSoftmax.softmax Facts₀.reducesTo_S8192_S_d0 Facts₀.h_S_ Facts₀.bcast_S_S1 Facts₀.bcast_S1_S8192_0 x := rfl

/-! ## The diagonal -/

/-- Two numbers below 8192 are equal as 32-bit words exactly when they are equal. -/
theorem ofNat_eq_iff {a b : Nat} (ha : a < 8192) (hb : b < 8192) : BitVec.ofNat 32 a = BitVec.ofNat 32 b ↔ a = b := by
  constructor
  · intro he
    have ht := congrArg BitVec.toNat he
    rw [BitVec.toNat_ofNat, BitVec.toNat_ofNat] at ht
    omega
  · rintro rfl; rfl

/-- The condition word at entry (a, b): row index plus zero against column index. -/
theorem diag_bit (a b : Fin 8192) :
    IntOp.cmpi .eq (IntOp.addi (BitVec.ofNat 32 a.val) 0#32) (BitVec.ofNat 32 b.val) = if a.val = b.val then 1#1 else 0#1 := by
  show BitVec.ofBool (BitVec.ofNat 32 a.val + 0#32 == BitVec.ofNat 32 b.val) = _
  rw [BitVec.add_zero]
  by_cases h : a.val = b.val
  · rw [if_pos h, h, beq_self_eq_true]; rfl
  · rw [if_neg h]
    have hne : BitVec.ofNat 32 a.val ≠ BitVec.ofNat 32 b.val := fun e => h ((ofNat_eq_iff a.isLt b.isLt).mp e)
    rw [beq_eq_false_iff_ne.mpr hne]; rfl

/-- The vector padded by nothing, made a column, broadcast along rows: at entry (a, b) it is the vector at a. -/
theorem column_apply (v : FVec Ideal S8192 .f32) (a b : Fin 8192) :
    broadcastInDim S8192x8192 ![0, 1] Facts₀.bcast_S8192x1_S8192x8192_0_1
      (broadcastInDim S8192x1 ![0] Facts₀.bcast_S8192_S8192x1_0
        (pad S8192 ![0] ![0] ![0] v (constant (F := Ideal) S_ .f32 0x00000000#32) Facts₀.pads_S8192_S8192_000 Facts₀.h_S_))
      (ix2 a b) = v (ix1 a) := by
  rw [broadcastInDim_apply ![0, 1] Facts₀.bcast_S8192x1_S8192x8192_0_1 _ (ix2 a b) (ix2 a (0 : Fin 1))
      (fun c => by match c with | ⟨0, _⟩ => rfl | ⟨1, _⟩ => rfl),
    broadcastInDim_apply ![0] Facts₀.bcast_S8192_S8192x1_0 _ (ix2 a (0 : Fin 1)) (ix1 a)
      (fun c => by match c with | ⟨0, _⟩ => rfl),
    pad_apply_of_inside ![0] ![0] ![0] v _ Facts₀.pads_S8192_S8192_000 Facts₀.h_S_ (ix1 a) (ix1 a)
      (fun c => by match c with | ⟨0, _⟩ => exact (by omega : a.val = 0 + a.val * (0 + 1)))]

theorem onDiag_eq (v : FVec Ideal S8192 .f32) : onDiag (F := Ideal) v = Cert.DiagSoftmax.diag v := by
  funext y
  obtain ⟨a, b, rfl⟩ : ∃ (a b : Fin 8192), y = ix2 a b := ⟨y 0, y 1, eq_ix2 y⟩
  unfold onDiag Cert.DiagSoftmax.diag
  rw [select_apply]
  have hbit : cmpi .eq (addi (iotaInDim S8192x8192 32 0) (broadcastInDim S8192x8192 ![] Facts₀.bcast_S_S8192x8192 (constantI S_ 32 0#32)))
      (iotaInDim S8192x8192 32 1) (ix2 a b) = if a.val = b.val then 1#1 else 0#1 := diag_bit a b
  rw [hbit]
  by_cases h : a.val = b.val
  · rw [if_pos h, select_one, column_apply, if_pos (show (ix2 a b 0).val = (ix2 a b 1).val from h)]
  · rw [if_neg h, select_zero, if_neg (show ¬(ix2 a b 0).val = (ix2 a b 1).val from h), broadcastInDim_scalar_apply, constant_apply,
      Ideal.ofBits_zero_f32]

/-! ## The run at the specification -/

/-- On the device, from any memory with zero counters: every weakly fair execution of the reference's @main terminates
    with the result buffer at the specification's function of the two arguments' launch contents, and the arguments
    unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v12)
          = Cert.DiagSoftmax.result Facts₀.reducesTo_S8192_S_d0 Facts₀.h_S_ Facts₀.bcast_S_S1 Facts₀.bcast_S1_S8192_0
              (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (by
      unfold Cert.DiagSoftmax.result
      rw [onDiag_eq, soft_eq, rowSums_eq]), (h c).2.1, (h c).2.2⟩)
    (RefRun.run m ρ)

end Cert.ReferenceIdeal.RefValue

end
-- ==== Proof.lean ====
/-
  The kernel computes diag(softmax(r)) for the vector r of row inner products r(i) = Σ_k query(i,k)·keys(i,k) of two
  [8192, 1024] arrays, and so does the reference.

  The kernel does it in three steps. A first kernel region walks the rows in four blocks of 2048 and writes, block by
  block, the lane sums of the entrywise product as an [8192, 1] column. Host operations view the column as a vector,
  take its softmax over all 8192 entries (exp of the entry minus the maximum, over the sum of those), and view it as a
  column again. A second kernel region walks the [8192, 8192] result in 4 x 4 blocks of 2048 x 2048: a block on the
  block diagonal gets the column's rows on its own diagonal and zero off it, a block off the block diagonal gets zero.
  The reference multiplies, sums along the rows, takes the same softmax, and selects the vector where the row counter
  equals the column counter and zero elsewhere.

  On the extended reals both are ONE function of the two arguments (Proof/Spec.lean): a row's lane sum accumulated from
  zero is the row's sum whatever the tiling; the softmax chain is the same operations on both sides, applied to equal
  vectors, and is never opened; and entry (2048·i + a, 2048·j + b) lies on the diagonal exactly when i = j and a = b.
  No finiteness of the inputs is used.

  The three frames (termination, no fault, arguments unchanged): each kernel program's run is proved at any float
  instance from its two regions' body triples and the pipeline's proof data, with the host stretch between them, and
  cited at the word-level instance and at the ideal one; the reference's from its run as a list of host operations.
  The idealization rewrote nothing, so that conjunct is trivial.
-/
import proofs.«153484_j25091198943263_1_alg».proof.Defs
import proofs.«153484_j25091198943263_1_alg».proof.Proof.Gen.Kernel
import proofs.«153484_j25091198943263_1_alg».proof.Proof.Gen.KernelIdeal
import proofs.«153484_j25091198943263_1_alg».proof.Proof.Gen.ReferenceIdeal
import proofs.«153484_j25091198943263_1_alg».proof.Proof.Gen.Pre_finite_inputs
import proofs.«153484_j25091198943263_1_alg».proof.Proof.KBRun
import proofs.«153484_j25091198943263_1_alg».proof.Proof.KIRun
import proofs.«153484_j25091198943263_1_alg».proof.Proof.KIValue
import proofs.«153484_j25091198943263_1_alg».proof.Proof.RefValue

noncomputable section

namespace Cert.Proof

open Idealize.ShloMosaic Idealize.ShloMosaic.TcCoe Idealize.SL.Sem

/-- The word-level kernel program runs and leaves its arguments unchanged. -/
theorem frame_kernel : Cert.frame_Kernel := fun m ρ _ =>
  (θ_run Cert.Kernel.defs _ _).mono (fun _ h c => (h c).2) (Cert.Kernel.Hand.run (F := Bits) m ρ)

/-- So does its idealization. -/
theorem frame_kernelIdeal : Cert.frame_KernelIdeal := fun m ρ _ =>
  (θ_run Cert.KernelIdeal.defs _ _).mono (fun _ h c => (h c).2) (Cert.KernelIdeal.Hand.run (F := Ideal) m ρ)

/-- And the idealized reference. -/
theorem frame_reference : Cert.frame_ReferenceIdeal := fun m ρ _ =>
  (θ_run Cert.ReferenceIdeal.defs _ _).mono (fun _ h c => (h c).2) (Cert.ReferenceIdeal.RefValue.run m ρ)

/-- From memories that agree on the two arguments both idealized programs end with the result buffer at the
    specification's function of the arguments. -/
theorem algebraic : Cert.algebraic_KernelIdeal_ReferenceIdeal := by
  intro m ρ m' ρ' _ hagree
  refine ⟨fun c => Cert.DiagSoftmax.result Cert.KernelIdeal.Facts₀.reducesTo_S8192_S_d0 Cert.KernelIdeal.Facts₀.h_S_
      Cert.KernelIdeal.Facts₀.bcast_S_S1 Cert.KernelIdeal.Facts₀.bcast_S1_S8192_0
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.KernelIdeal.HandValue.result_eq m ρ c), (h c).2⟩)
      (Cert.KernelIdeal.Hand.run (F := Ideal) m ρ)
  · refine (θ_run Cert.ReferenceIdeal.defs _ _).mono (fun _ h c => ⟨(h c).1.trans ?_, (h c).2⟩)
      (Cert.ReferenceIdeal.RefValue.run m' ρ')
    rw [(hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
